-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_arg11 : FVec F S64 .f32) (main_arg15 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_cst_28 : FVec F S_ .f32 := constant S_ .f32 0x00000000#32
  let main_v74 : FVec F S64 .f32 := broadcastInDim S64 ![] bcast_S_S64 main_cst_28
  let main_v75 : IVec S64 1 := cmpf .oge main_arg11 main_v74
  let main_c_29 : IVec S_ 1 := constantI S_ 1 1#1
  let main_v76 : IVec S_ 1 := (fun x v => Host.reduce IntOp.andi x v reducesTo_S64_S_d0 h_S_) main_v75 main_c_29
  let main_v77 : IVec S_ 1 := andi main_v73 main_v76
  let main_cst_30 : FVec F S_ .f32 := constant S_ .f32 0x00000000#32
  let main_v78 : FVec F S64 .f32 := broadcastInDim S64 ![] bcast_S_S64 main_cst_30
  let main_v79 : IVec S64 1 := cmpf .oge main_arg15 main_v78
  let main_c_31 : IVec S_ 1 := constantI S_ 1 1#1
  let main_v80 : IVec S_ 1 := (fun x v => Host.reduce IntOp.andi x v reducesTo_S64_S_d0 h_S_) main_v79 main_c_31
  let main_v81 : IVec S_ 1 := andi main_v77 main_v80
  main_v81

def fn_part3 {F : FTy → Type} [FloatOps F] (main_arg11 : FVec F S64 .f32) (main_arg12 : FVec F S64 .f32) (main_arg13 : FVec F S64 .f32) (main_arg14 : FVec F S64 .f32) (main_arg15 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg11 main_arg15 main_v63 main_v67

def fn_part2 {F : FTy → Type} [FloatOps F] (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_arg15 main_v48 main_v49 main_v50

def fn_part1 {F : FTy → Type} [FloatOps F] (main_arg5 : FVec F S64 .f32) (main_arg6 : FVec F S64x16 .f32) (main_arg7 : FVec F S16 .f32) (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg6
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x16 .f32) (main_arg7 : FVec F S16 .f32) (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64 .f32) (main_arg15 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S100000x16 : Shape := ⟨2, ![100000, 16]⟩
abbrev S5000x16 : Shape := ⟨2, ![5000, 16]⟩
abbrev S1700000x16 : Shape := ⟨2, ![1700000, 16]⟩
abbrev S1x16 : Shape := ⟨2, ![1, 16]⟩

abbrev nBuf : Space → Nat
  | .hbm => 135
  | .vmem => 25
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x16, .f32⟩
  | 7 => ⟨S16, .f32⟩
  | 8 => ⟨S64, .f32⟩
  | 9 => ⟨S64, .f32⟩
  | 10 => ⟨S64, .f32⟩
  | 11 => ⟨S64, .f32⟩
  | 12 => ⟨S64, .f32⟩
  | 13 => ⟨S64, .f32⟩
  | 14 => ⟨S64, .f32⟩
  | 15 => ⟨S64, .f32⟩
  | 16 => ⟨S100000, .i32⟩
  | 17 => ⟨S1x1600000, .i32⟩
  | 18 => ⟨S1600000, .i32⟩
  | 19 => ⟨S1700000, .i32⟩
  | 20 => ⟨S1x1600000, .i32⟩
  | 21 => ⟨S1600000, .i32⟩
  | 22 => ⟨S1700000, .i32⟩
  | 23 => ⟨S_, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .i1⟩
  | 32 => ⟨S_, .f32⟩
  | 33 => ⟨S100000, .f32⟩
  | 34 => ⟨S100000, .f32⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000, .f32⟩
  | 58 => ⟨S1700000, .f32⟩
  | 59 => ⟨S100000x64, .f32⟩
  | 60 => ⟨S_, .i32⟩
  | 61 => ⟨S1700000, .i32⟩
  | 62 => ⟨S1700000, .i1⟩
  | 63 => ⟨S_, .i32⟩
  | 64 => ⟨S1700000, .i32⟩
  | 65 => ⟨S1700000, .i32⟩
  | 66 => ⟨S1700000, .i32⟩
  | 67 => ⟨S1700000x1, .i32⟩
  | 68 => ⟨S1700000x64, .f32⟩
  | 69 => ⟨S1700000x1, .f32⟩
  | 70 => ⟨S1700000x64, .f32⟩
  | 71 => ⟨S1700000x64, .f32⟩
  | 72 => ⟨S_, .f32⟩
  | 73 => ⟨S100000x64, .f32⟩
  | 74 => ⟨S1700000x1, .i32⟩
  | 75 => ⟨S100000x64, .f32⟩
  | 76 => ⟨S_, .f32⟩
  | 77 => ⟨S64, .f32⟩
  | 78 => ⟨S64, .f32⟩
  | 79 => ⟨S64, .f32⟩
  | 80 => ⟨S64, .f32⟩
  | 81 => ⟨S64, .f32⟩
  | 82 => ⟨S64, .f32⟩
  | 83 => ⟨S64, .f32⟩
  | 84 => ⟨S1x64, .f32⟩
  | 85 => ⟨S1x64, .f32⟩
  | 86 => ⟨S100000x64, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000x64, .f32⟩
  | 96 => ⟨S1700000x1, .f32⟩
  | 97 => ⟨S1700000x64, .f32⟩
  | 98 => ⟨S1700000x64, .f32⟩
  | 99 => ⟨S_, .f32⟩
  | 100 => ⟨S100000x64, .f32⟩
  | 101 => ⟨S1700000x1, .i32⟩
  | 102 => ⟨S100000x64, .f32⟩
  | 103 => ⟨S_, .f32⟩
  | 104 => ⟨S64, .f32⟩
  | 105 => ⟨S64, .f32⟩
  | 106 => ⟨S64, .f32⟩
  | 107 => ⟨S64, .f32⟩
  | 108 => ⟨S64, .f32⟩
  | 109 => ⟨S64, .f32⟩
  | 110 => ⟨S64, .f32⟩
  | 111 => ⟨S1x64, .f32⟩
  | 112 => ⟨S1x64, .f32⟩
  | 113 => ⟨S100000x16, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000x16, .f32⟩
  | 123 => ⟨S1700000x1, .f32⟩
  | 124 => ⟨S1700000x16, .f32⟩
  | 125 => ⟨S1700000x16, .f32⟩
  | 126 => ⟨S_, .f32⟩
  | 127 => ⟨S100000x16, .f32⟩
  | _ => ⟨S100000x128, .f32⟩

abbrev hbmTy0_1 (i : Nat) : BufTy := match i % 128 with
  | 0 => ⟨S1700000x1, .i32⟩
  | 1 => ⟨S100000x16, .f32⟩
  | 2 => ⟨S_, .f32⟩
  | 3 => ⟨S16, .f32⟩
  | 4 => ⟨S1x16, .f32⟩
  | 5 => ⟨S1x16, .f32⟩
  | 6 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x64, .f32⟩
  | .local _ .vmem, ⟨9, _⟩ => ⟨S64x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S1x64, .f32⟩
  | .local _ .vmem, ⟨15, _⟩ => ⟨S1x64, .f32⟩
  | .local _ .vmem, ⟨16, _⟩ => ⟨S64x16, .f32⟩
  | .local _ .vmem, ⟨17, _⟩ => ⟨S5000x16, .f32⟩
  | .local _ .vmem, ⟨18, _⟩ => ⟨S5000x16, .f32⟩
  | .local _ .vmem, ⟨19, _⟩ => ⟨S5000x16, .f32⟩
  | .local _ .vmem, ⟨20, _⟩ => ⟨S5000x16, .f32⟩
  | .local _ .vmem, ⟨21, _⟩ => ⟨S1x16, .f32⟩
  | .local _ .vmem, ⟨22, _⟩ => ⟨S1x16, .f32⟩
  | .local _ .vmem, ⟨23, _⟩ => ⟨S5000x16, .f32⟩
  | .local _ .vmem, ⟨24, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_c_6 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_c_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_c_11 : Ref sig .tc := ⟨.hbm, 87, rfl⟩
abbrev main_v56 : Ref sig .tc := ⟨.hbm, 88, rfl⟩
abbrev main_v57 : Ref sig .tc := ⟨.hbm, 89, rfl⟩
abbrev main_c_12 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_14 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_15 : Ref sig .tc := ⟨.hbm, 114, rfl⟩
abbrev main_v79 : Ref sig .tc := ⟨.hbm, 115, rfl⟩
abbrev main_v80 : Ref sig .tc := ⟨.hbm, 116, rfl⟩
abbrev main_c_16 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_17 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_18 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S_S64 : S_.BroadcastsInDim S64 (![] : Fin 0 → Fin S64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S_S16 : S_.BroadcastsInDim S16 (![] : Fin 0 → Fin S16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  dot_S5000x64_S64x16_S5000x16_1_0_0_1_n_n_wf : DotDims.WF S5000x64 S64x16 S5000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x16.size a ≤ S64x16.size a
  hwx2_3 : ∀ i : grid2.Coords, EltTy.bits .f32 = 32 ∨ (Rect.block (s := S64x16) S64x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x16.size a ≤ S100000x16.size a
  hwx2_4 : ∀ i : grid2.Coords, EltTy.bits .f32 = 32 ∨ (Rect.block (s := S100000x16) S5000x16.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x16.size a ≤ S100000x16.size a
  hwx3_3 : ∀ i : grid3.Coords, EltTy.bits .f32 = 32 ∨ (Rect.block (s := S100000x16) S5000x16.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v68) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v76) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v77) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S64x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v78) S5000x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v91) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v93) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v94) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v95) S5000x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x16 : Shape := ⟨2, ![100000, 16]⟩
abbrev S1700000x16 : Shape := ⟨2, ![1700000, 16]⟩
abbrev S1x16 : Shape := ⟨2, ![1, 16]⟩

abbrev nBuf : Space → Nat
  | .hbm => 165
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x16, .f32⟩
  | 7 => ⟨S16, .f32⟩
  | 8 => ⟨S64, .f32⟩
  | 9 => ⟨S64, .f32⟩
  | 10 => ⟨S64, .f32⟩
  | 11 => ⟨S64, .f32⟩
  | 12 => ⟨S64, .f32⟩
  | 13 => ⟨S64, .f32⟩
  | 14 => ⟨S64, .f32⟩
  | 15 => ⟨S64, .f32⟩
  | 16 => ⟨S100000, .i32⟩
  | 17 => ⟨S1x1600000, .i32⟩
  | 18 => ⟨S1600000, .i32⟩
  | 19 => ⟨S1700000, .i32⟩
  | 20 => ⟨S1x1600000, .i32⟩
  | 21 => ⟨S1600000, .i32⟩
  | 22 => ⟨S1700000, .i32⟩
  | 23 => ⟨S_, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .i1⟩
  | 32 => ⟨S_, .f32⟩
  | 33 => ⟨S100000, .f32⟩
  | 34 => ⟨S100000, .f32⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000, .f32⟩
  | 58 => ⟨S1700000, .f32⟩
  | 59 => ⟨S100000x64, .f32⟩
  | 60 => ⟨S_, .i32⟩
  | 61 => ⟨S1700000, .i32⟩
  | 62 => ⟨S1700000, .i1⟩
  | 63 => ⟨S_, .i32⟩
  | 64 => ⟨S1700000, .i32⟩
  | 65 => ⟨S1700000, .i32⟩
  | 66 => ⟨S1700000, .i32⟩
  | 67 => ⟨S1700000x1, .i32⟩
  | 68 => ⟨S1700000x64, .f32⟩
  | 69 => ⟨S1700000x1, .f32⟩
  | 70 => ⟨S1700000x64, .f32⟩
  | 71 => ⟨S1700000x64, .f32⟩
  | 72 => ⟨S_, .f32⟩
  | 73 => ⟨S100000x64, .f32⟩
  | 74 => ⟨S1700000x1, .i32⟩
  | 75 => ⟨S100000x64, .f32⟩
  | 76 => ⟨S1x64, .f32⟩
  | 77 => ⟨S100000x64, .f32⟩
  | 78 => ⟨S100000x64, .f32⟩
  | 79 => ⟨S1x64, .f32⟩
  | 80 => ⟨S100000x64, .f32⟩
  | 81 => ⟨S100000x64, .f32⟩
  | 82 => ⟨S1x64, .f32⟩
  | 83 => ⟨S100000x64, .f32⟩
  | 84 => ⟨S100000x64, .f32⟩
  | 85 => ⟨S_, .f32⟩
  | 86 => ⟨S64, .f32⟩
  | 87 => ⟨S64, .f32⟩
  | 88 => ⟨S64, .f32⟩
  | 89 => ⟨S1x64, .f32⟩
  | 90 => ⟨S100000x64, .f32⟩
  | 91 => ⟨S100000x64, .f32⟩
  | 92 => ⟨S1x64, .f32⟩
  | 93 => ⟨S100000x64, .f32⟩
  | 94 => ⟨S100000x64, .f32⟩
  | 95 => ⟨S_, .f32⟩
  | 96 => ⟨S100000x64, .f32⟩
  | 97 => ⟨S100000x64, .f32⟩
  | 98 => ⟨S100000x64, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000x64, .f32⟩
  | 108 => ⟨S1700000x1, .f32⟩
  | 109 => ⟨S1700000x64, .f32⟩
  | 110 => ⟨S1700000x64, .f32⟩
  | 111 => ⟨S_, .f32⟩
  | 112 => ⟨S100000x64, .f32⟩
  | 113 => ⟨S1700000x1, .i32⟩
  | 114 => ⟨S100000x64, .f32⟩
  | 115 => ⟨S1x64, .f32⟩
  | 116 => ⟨S100000x64, .f32⟩
  | 117 => ⟨S100000x64, .f32⟩
  | 118 => ⟨S1x64, .f32⟩
  | 119 => ⟨S100000x64, .f32⟩
  | 120 => ⟨S100000x64, .f32⟩
  | 121 => ⟨S1x64, .f32⟩
  | 122 => ⟨S100000x64, .f32⟩
  | 123 => ⟨S100000x64, .f32⟩
  | 124 => ⟨S_, .f32⟩
  | 125 => ⟨S64, .f32⟩
  | 126 => ⟨S64, .f32⟩
  | 127 => ⟨S64, .f32⟩
  | _ => ⟨S100000x128, .f32⟩

abbrev hbmTy0_1 (i : Nat) : BufTy := match i % 128 with
  | 0 => ⟨S1x64, .f32⟩
  | 1 => ⟨S100000x64, .f32⟩
  | 2 => ⟨S100000x64, .f32⟩
  | 3 => ⟨S1x64, .f32⟩
  | 4 => ⟨S100000x64, .f32⟩
  | 5 => ⟨S100000x64, .f32⟩
  | 6 => ⟨S_, .f32⟩
  | 7 => ⟨S100000x64, .f32⟩
  | 8 => ⟨S100000x64, .f32⟩
  | 9 => ⟨S100000x16, .f32⟩
  | 10 => ⟨S_, .i32⟩
  | 11 => ⟨S1700000, .i32⟩
  | 12 => ⟨S1700000, .i1⟩
  | 13 => ⟨S_, .i32⟩
  | 14 => ⟨S1700000, .i32⟩
  | 15 => ⟨S1700000, .i32⟩
  | 16 => ⟨S1700000, .i32⟩
  | 17 => ⟨S1700000x1, .i32⟩
  | 18 => ⟨S1700000x16, .f32⟩
  | 19 => ⟨S1700000x1, .f32⟩
  | 20 => ⟨S1700000x16, .f32⟩
  | 21 => ⟨S1700000x16, .f32⟩
  | 22 => ⟨S_, .f32⟩
  | 23 => ⟨S100000x16, .f32⟩
  | 24 => ⟨S1700000x1, .i32⟩
  | 25 => ⟨S100000x16, .f32⟩
  | 26 => ⟨S1x16, .f32⟩
  | 27 => ⟨S100000x16, .f32⟩
  | 28 => ⟨S100000x16, .f32⟩
  | 29 => ⟨S100000x16, .f32⟩
  | 30 => ⟨S100000x16, .f32⟩
  | 31 => ⟨S_, .f32⟩
  | 32 => ⟨S100000x16, .f32⟩
  | 33 => ⟨S100000x16, .f32⟩
  | 34 => ⟨S_, .f32⟩
  | 35 => ⟨S100000x16, .f32⟩
  | 36 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_c_6 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_c_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_call1_cst : Ref sig .tc := ⟨.hbm, 95, rfl⟩
abbrev main_call1_v0 : Ref sig .tc := ⟨.hbm, 96, rfl⟩
abbrev main_v64 : Ref sig .tc := ⟨.hbm, 97, rfl⟩
abbrev main_v65 : Ref sig .tc := ⟨.hbm, 98, rfl⟩
abbrev main_c_11 : Ref sig .tc := ⟨.hbm, 99, rfl⟩
abbrev main_v66 : Ref sig .tc := ⟨.hbm, 100, rfl⟩
abbrev main_v67 : Ref sig .tc := ⟨.hbm, 101, rfl⟩
abbrev main_c_12 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_13 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_14 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_call2_cst : Ref sig .tc := ⟨.hbm, 134, rfl⟩
abbrev main_call2_v0 : Ref sig .tc := ⟨.hbm, 135, rfl⟩
abbrev main_v97 : Ref sig .tc := ⟨.hbm, 136, rfl⟩
abbrev main_v98 : Ref sig .tc := ⟨.hbm, 137, rfl⟩
abbrev main_c_15 : Ref sig .tc := ⟨.hbm, 138, rfl⟩
abbrev main_v99 : Ref sig .tc := ⟨.hbm, 139, rfl⟩
abbrev main_v100 : Ref sig .tc := ⟨.hbm, 140, rfl⟩
abbrev main_c_16 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_17 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_18 : Ref sig .tc := ⟨.hbm, 159, rfl⟩
abbrev main_v117 : Ref sig .tc := ⟨.hbm, 160, rfl⟩
abbrev main_v118 : Ref sig .tc := ⟨.hbm, 161, rfl⟩
abbrev main_cst_19 : Ref sig .tc := ⟨.hbm, 162, rfl⟩
abbrev main_v119 : Ref sig .tc := ⟨.hbm, 163, rfl⟩
abbrev main_v120 : Ref sig .tc := ⟨.hbm, 164, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.KernelRun.lean ====
/-
  The idealized kernel's run, with its result array named.

  @main is ten segments: three stretches of host operations, then four times a kernel launched over twenty row tiles
  followed (but for the last) by a stretch of host operations. The buffer contents at each segment boundary form a
  fold from the launch memory; the last one, after the fourth kernel's write-backs, is the contents every weakly fair
  execution ends with. So the run ends with the result buffer holding what that last fold holds there, and the
  argument arrays as launched: the segments' launch theorem, its final thread state read against the final memory.
-/
import proofs.«142197_j25941602468495_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and every argument array as launched. -/
theorem run : θ_run defs (onTc (τ := τ) (main (F := F))) ⟨m, fun _ => 0, ρ⟩ (fun r => ∀ c : Dev nD,
      r.2.mem ((c.tc : Thread nD τ).loc main_v95) = W10 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v95 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c)⟩)

end Cert.KernelIdeal.RunValue

end
-- ==== Proof.Entry.lean ====
/-
  The buffers at the first kernel's entry.

  Before the first kernel is launched @main runs three stretches of host operations that build the graph: the edge
  list with a self-loop appended per node (sources and destinations), the node degrees by a scatter-add of ones, their
  inverse square roots where the degree is positive, and the edge weights deg(src)^(-1/2) · deg(dst)^(-1/2). None of
  them writes an argument array. The reference runs the very same operations, so what these buffers hold is the
  reference's own stage, as a function of the edge index array the kernel was launched with. The stretch is read in
  four steps — the edge lists; the degrees and their inverse square roots; the selection; the two gathers and their
  product — each step a handful of operations over the buffers the step before left.
-/
import proofs.«142197_j25941602468495_1_alg».proof.Proof.Gen.KernelIdeal.Frame
import proofs.«142197_j25941602468495_1_alg».proof.Proof.RefRead

set_option maxRecDepth 16384

noncomputable section

namespace Cert.KernelIdeal.Entry

open Idealize.ShloMosaic Idealize.ShloMosaic.TcCoe Idealize.SL.Sem
open Cert.KernelIdeal Cert.KernelIdeal.Gen

/-- The results of a stretch of host operations read one at a time by rewriting: for what a single simplifier pass leaves
    (a buffer read inside the list of a concatenation). -/
macro "results_rw" : tactic =>
  `(tactic| (repeat (first
      | rw [StableHlo.nullary_result] | rw [StableHlo.unary_result] | rw [StableHlo.binary_result] | rw [StableHlo.ternary_result]
      | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide))))

variable (m : (ℓ : Loc nD τ sig) → Buf (Elt Ideal) ℓ) (ρ : Dev nD → PrngReg)

/-- The buffers once the two edge lists are built (the first seven operations). -/
def edges (c : Dev nD) : Valuation τ sig (Elt Ideal) := StableHlo.after ((hostOps0 (F := Ideal)).take 7) (W0 m ρ c)
/-- The buffers once the degrees, the comparison with zero and the inverse square roots are there. -/
def degrees (c : Dev nD) : Valuation τ sig (Elt Ideal) := StableHlo.after ((hostOps0 (F := Ideal)).drop 7) (edges m ρ c)
/-- The buffers once the inverse square roots are selected where the degree is positive. -/
def selected (c : Dev nD) : Valuation τ sig (Elt Ideal) := StableHlo.after (hostOps0_1 (F := Ideal)) (degrees m ρ c)

/-- The first kernel is entered from the fourth step's buffers. -/
theorem W3_eq (c : Dev nD) : W3 m ρ c = StableHlo.after (hostOps0_2 (F := Ideal)) (selected m ρ c) := rfl

/-! ### The edge lists -/

theorem edges_src (c : Dev nD) : edges m ρ c (Proc.devRef .tc main_v3)
    = Cert.ReferenceIdeal.ReadP.val_main_v3 (F := Ideal) (m ((c : Thread nD τ).loc main_arg1)) := by
  dsimp only [edges, hostOps0, List.take]
  after_results
  rfl

theorem edges_dst (c : Dev nD) : edges m ρ c (Proc.devRef .tc main_v6)
    = Cert.ReferenceIdeal.ReadP.val_main_v6 (F := Ideal) (m ((c : Thread nD τ).loc main_arg1)) := by
  dsimp only [edges, hostOps0, List.take]
  after_results
  rfl

/-! ### The degrees -/

theorem degrees_src (c : Dev nD) : degrees m ρ c (Proc.devRef .tc main_v3)
    = Cert.ReferenceIdeal.ReadP.val_main_v3 (F := Ideal) (m ((c : Thread nD τ).loc main_arg1)) := by
  dsimp only [degrees, hostOps0, List.drop]
  after_results
  exact edges_src m ρ c

theorem degrees_dst (c : Dev nD) : degrees m ρ c (Proc.devRef .tc main_v6)
    = Cert.ReferenceIdeal.ReadP.val_main_v6 (F := Ideal) (m ((c : Thread nD τ).loc main_arg1)) := by
  dsimp only [degrees, hostOps0, List.drop]
  after_results
  exact edges_dst m ρ c

/-- Where the degree is positive. -/
theorem degrees_pos (c : Dev nD) : degrees m ρ c (Proc.devRef .tc main_v12)
    = Cert.ReferenceIdeal.ReadP.val_main_v12 (F := Ideal) (m ((c : Thread nD τ).loc main_arg1)) := by
  dsimp only [degrees, hostOps0, List.drop]
  after_results
  rw [edges_dst]
  rfl

/-- The inverse square root of the degree (of one where the degree is smaller). -/
theorem degrees_rsqrt (c : Dev nD) : degrees m ρ c (Proc.devRef .tc main_v15)
    = Cert.ReferenceIdeal.ReadP.val_main_v15 (F := Ideal) (m ((c : Thread nD τ).loc main_arg1)) := by
  dsimp only [degrees, hostOps0, List.drop]
  after_results
  rw [edges_dst]
  rfl

theorem degrees_zero (c : Dev nD) : degrees m ρ c (Proc.devRef .tc main_cst_3) = Cert.ReferenceIdeal.ReadP.val_main_cst_3 (F := Ideal) := by
  dsimp only [degrees, hostOps0, List.drop]
  after_results
  rfl

/-! ### The selection

The selection is a call of a module-local function, whose operations move each value between its own type and its
buffer's type; on these buffers the two types are one, and the transport is the identity. -/

theorem toBuf_dinv (h1 h2 h3) (v : (⟨S100000, .f32⟩ : BufTy).Contents (Elt Ideal)) :
    (StableHlo.TRef.of (sig := sig) (T := ⟨S100000, .f32⟩) main_v16 h1 h2 h3).toBuf v = v := rfl
theorem ofBuf_pos (h1 h2 h3) (v : (⟨S100000, .i1⟩ : BufTy).Contents (Elt Ideal)) :
    (StableHlo.TRef.of (sig := sig) (T := ⟨S100000, .i1⟩) main_v12 h1 h2 h3).ofBuf v = v := rfl
theorem ofBuf_rsqrt (h1 h2 h3) (v : (⟨S100000, .f32⟩ : BufTy).Contents (Elt Ideal)) :
    (StableHlo.TRef.of (sig := sig) (T := ⟨S100000, .f32⟩) main_v15 h1 h2 h3).ofBuf v = v := rfl
theorem toBuf_zeros (h1 h2 h3) (v : (⟨S100000, .f32⟩ : BufTy).Contents (Elt Ideal)) :
    (StableHlo.TRef.of (sig := sig) (T := ⟨S100000, .f32⟩) main_call0_v1 h1 h2 h3).toBuf v = v := rfl
theorem ofBuf_zeros (h1 h2 h3) (v : (⟨S100000, .f32⟩ : BufTy).Contents (Elt Ideal)) :
    (StableHlo.TRef.of (sig := sig) (T := ⟨S100000, .f32⟩) main_call0_v1 h1 h2 h3).ofBuf v = v := rfl
theorem toBuf_zero (h1 h2 h3) (v : (⟨S_, .f32⟩ : BufTy).Contents (Elt Ideal)) :
    (StableHlo.TRef.of (sig := sig) (T := ⟨S_, .f32⟩) main_call0_v0 h1 h2 h3).toBuf v = v := rfl
theorem ofBuf_zero (h1 h2 h3) (v : (⟨S_, .f32⟩ : BufTy).Contents (Elt Ideal)) :
    (StableHlo.TRef.of (sig := sig) (T := ⟨S_, .f32⟩) main_call0_v0 h1 h2 h3).ofBuf v = v := rfl
theorem ofBuf_zeroWord (h1 h2 h3) (v : (⟨S_, .f32⟩ : BufTy).Contents (Elt Ideal)) :
    (StableHlo.TRef.of (sig := sig) (T := ⟨S_, .f32⟩) main_cst_3 h1 h2 h3).ofBuf v = v := rfl

theorem selected_src (c : Dev nD) : selected m ρ c (Proc.devRef .tc main_v3)
    = Cert.ReferenceIdeal.ReadP.val_main_v3 (F := Ideal) (m ((c : Thread nD τ).loc main_arg1)) := by
  dsimp only [selected, hostOps0_1]
  after_results
  exact degrees_src m ρ c

theorem selected_dst (c : Dev nD) : selected m ρ c (Proc.devRef .tc main_v6)
    = Cert.ReferenceIdeal.ReadP.val_main_v6 (F := Ideal) (m ((c : Thread nD τ).loc main_arg1)) := by
  dsimp only [selected, hostOps0_1]
  after_results
  exact degrees_dst m ρ c

/-- deg^(-1/2) where the degree is positive, zero elsewhere. -/
theorem selected_dinv (c : Dev nD) : selected m ρ c (Proc.devRef .tc main_v16)
    = Cert.ReferenceIdeal.ReadP.val_main_v16 (F := Ideal) (m ((c : Thread nD τ).loc main_arg1)) := by
  dsimp only [selected, hostOps0_1]
  after_results
  rw [degrees_pos, degrees_rsqrt, degrees_zero]
  rw [toBuf_dinv, ofBuf_pos, ofBuf_rsqrt, ofBuf_zeros, toBuf_zeros, ofBuf_zero, toBuf_zero, ofBuf_zeroWord]
  rfl

/-! ### At the first kernel's entry -/

/-- The edge sources with the self-loops appended. -/
theorem src (c : Dev nD) : W3 m ρ c (Proc.devRef .tc main_v3)
    = Cert.ReferenceIdeal.ReadP.val_main_v3 (F := Ideal) (m ((c : Thread nD τ).loc main_arg1)) := by
  rw [W3_eq]
  dsimp only [hostOps0_2]
  after_results
  exact selected_src m ρ c

/-- The edge destinations with the self-loops appended. -/
theorem dst (c : Dev nD) : W3 m ρ c (Proc.devRef .tc main_v6)
    = Cert.ReferenceIdeal.ReadP.val_main_v6 (F := Ideal) (m ((c : Thread nD τ).loc main_arg1)) := by
  rw [W3_eq]
  dsimp only [hostOps0_2]
  after_results
  exact selected_dst m ρ c

set_option maxHeartbeats 2000000 in
/-- The edge weights deg(src)^(-1/2) · deg(dst)^(-1/2). -/
theorem norm (c : Dev nD) : W3 m ρ c (Proc.devRef .tc main_v31)
    = Cert.ReferenceIdeal.ReadP.val_main_v31 (F := Ideal) (m ((c : Thread nD τ).loc main_arg1)) := by
  rw [W3_eq]
  dsimp only [hostOps0_2]
  after_results_simp
  rw [selected_dinv, selected_src, selected_dst]
  rfl

/-- Argument 0 is as launched. -/
theorem arg0 (c : Dev nD) : W3 m ρ c (Proc.devRef .tc main_arg0) = m ((c : Thread nD τ).loc main_arg0) := by
  dsimp only [W3, W2, W1, hostOps0, hostOps0_1, hostOps0_2]
  after_results

/-- Argument 2 is as launched. -/
theorem arg2 (c : Dev nD) : W3 m ρ c (Proc.devRef .tc main_arg2) = m ((c : Thread nD τ).loc main_arg2) := by
  dsimp only [W3, W2, W1, hostOps0, hostOps0_1, hostOps0_2]
  after_results

/-- Argument 3 is as launched. -/
theorem arg3 (c : Dev nD) : W3 m ρ c (Proc.devRef .tc main_arg3) = m ((c : Thread nD τ).loc main_arg3) := by
  dsimp only [W3, W2, W1, hostOps0, hostOps0_1, hostOps0_2]
  after_results

/-- Argument 4 is as launched. -/
theorem arg4 (c : Dev nD) : W3 m ρ c (Proc.devRef .tc main_arg4) = m ((c : Thread nD τ).loc main_arg4) := by
  dsimp only [W3, W2, W1, hostOps0, hostOps0_1, hostOps0_2]
  after_results

/-- Argument 5 is as launched. -/
theorem arg5 (c : Dev nD) : W3 m ρ c (Proc.devRef .tc main_arg5) = m ((c : Thread nD τ).loc main_arg5) := by
  dsimp only [W3, W2, W1, hostOps0, hostOps0_1, hostOps0_2]
  after_results

/-- Argument 6 is as launched. -/
theorem arg6 (c : Dev nD) : W3 m ρ c (Proc.devRef .tc main_arg6) = m ((c : Thread nD τ).loc main_arg6) := by
  dsimp only [W3, W2, W1, hostOps0, hostOps0_1, hostOps0_2]
  after_results

/-- Argument 7 is as launched. -/
theorem arg7 (c : Dev nD) : W3 m ρ c (Proc.devRef .tc main_arg7) = m ((c : Thread nD τ).loc main_arg7) := by
  dsimp only [W3, W2, W1, hostOps0, hostOps0_1, hostOps0_2]
  after_results

/-- Argument 8 is as launched. -/
theorem arg8 (c : Dev nD) : W3 m ρ c (Proc.devRef .tc main_arg8) = m ((c : Thread nD τ).loc main_arg8) := by
  dsimp only [W3, W2, W1, hostOps0, hostOps0_1, hostOps0_2]
  after_results

/-- Argument 9 is as launched. -/
theorem arg9 (c : Dev nD) : W3 m ρ c (Proc.devRef .tc main_arg9) = m ((c : Thread nD τ).loc main_arg9) := by
  dsimp only [W3, W2, W1, hostOps0, hostOps0_1, hostOps0_2]
  after_results

/-- Argument 10 is as launched. -/
theorem arg10 (c : Dev nD) : W3 m ρ c (Proc.devRef .tc main_arg10) = m ((c : Thread nD τ).loc main_arg10) := by
  dsimp only [W3, W2, W1, hostOps0, hostOps0_1, hostOps0_2]
  after_results

/-- Argument 11 is as launched. -/
theorem arg11 (c : Dev nD) : W3 m ρ c (Proc.devRef .tc main_arg11) = m ((c : Thread nD τ).loc main_arg11) := by
  dsimp only [W3, W2, W1, hostOps0, hostOps0_1, hostOps0_2]
  after_results

/-- Argument 12 is as launched. -/
theorem arg12 (c : Dev nD) : W3 m ρ c (Proc.devRef .tc main_arg12) = m ((c : Thread nD τ).loc main_arg12) := by
  dsimp only [W3, W2, W1, hostOps0, hostOps0_1, hostOps0_2]
  after_results

/-- Argument 13 is as launched. -/
theorem arg13 (c : Dev nD) : W3 m ρ c (Proc.devRef .tc main_arg13) = m ((c : Thread nD τ).loc main_arg13) := by
  dsimp only [W3, W2, W1, hostOps0, hostOps0_1, hostOps0_2]
  after_results

/-- Argument 14 is as launched. -/
theorem arg14 (c : Dev nD) : W3 m ρ c (Proc.devRef .tc main_arg14) = m ((c : Thread nD τ).loc main_arg14) := by
  dsimp only [W3, W2, W1, hostOps0, hostOps0_1, hostOps0_2]
  after_results

/-- Argument 15 is as launched. -/
theorem arg15 (c : Dev nD) : W3 m ρ c (Proc.devRef .tc main_arg15) = m ((c : Thread nD τ).loc main_arg15) := by
  dsimp only [W3, W2, W1, hostOps0, hostOps0_1, hostOps0_2]
  after_results

end Cert.KernelIdeal.Entry

end
-- ==== Proof.Bodies.lean ====
/- What each of the four kernel bodies leaves in its output block, read entry by entry over the
   extended reals.

   Every body stores one whole block, so the stored block is the body's arithmetic applied to the
   loaded blocks. Over the extended reals a change of float format is the identity, a shape cast to
   the same shape is the identity, a one-row block broadcast down the rows reads its row 0, the
   elementwise operations act entry by entry, and a matrix product accumulated into the zero block
   is the plain sum over the contracted axis. So:

   * body 0 at (p, q) is  ∑ k, a (p, k) * b (k, q);
   * bodies 1 and 2 at (p, q) are  ∑ k, max (a (p, k) * s (0, k) + t (0, k)) 0 * w (k, q);
   * body 3 at (p, q) is  logistic (a (p, q) * s (0, q) + t (0, q)). -/
import proofs.«142197_j25941602468495_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.Bodies

open Idealize.ShloMosaic
open Cert.KernelIdeal Cert.KernelIdeal.Gen

/-- The zero offsets of a whole-block rectangle, however they are spelt. -/
theorem off_zero : (![0, 0] : Fin 2 → Nat) = fun _ => 0 := funext fun a => by fin_cases a <;> rfl

/-! ## Body 0: a matrix product -/

/-- The one whole-block store leaves the payload of the whole loaded blocks. -/
theorem out0_2_eq (x0 : Vec Ideal S5000x128 .f32) (x1 : Vec Ideal S128x64 .f32) :
    out0_2 (F := Ideal) x0 x1 = k0_pay1 (F := Ideal) x0 x1 := by
  unfold out0_2
  rw [View.canon_unit_zero off_zero]
  simp only [View.ld_unit_zero (S := S5000x128) off_zero, View.ld_unit_zero (S := S128x64) off_zero]

/-- Coordinate 0 of the left operand's index is the output's row. -/
theorem lhs0_0 (i : S5000x64.Idx) (c : dot_S5000x128_S128x64_S5000x64_1_0_0_1_n_n.contr.Idx) :
    (dot_S5000x128_S128x64_S5000x64_1_0_0_1_n_n.lhsIdx i c 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
/-- Coordinate 1 of the left operand's index is the contracted coordinate. -/
theorem lhs0_1 (i : S5000x64.Idx) (c : dot_S5000x128_S128x64_S5000x64_1_0_0_1_n_n.contr.Idx) :
    (dot_S5000x128_S128x64_S5000x64_1_0_0_1_n_n.lhsIdx i c 1).val = (c ⟨0, by decide⟩).val :=
  dot_S5000x128_S128x64_S5000x64_1_0_0_1_n_n.lhsIdx_val_of_single rfl i c
/-- Coordinate 0 of the right operand's index is the contracted coordinate. -/
theorem rhs0_0 (i : S5000x64.Idx) (c : dot_S5000x128_S128x64_S5000x64_1_0_0_1_n_n.contr.Idx) :
    (dot_S5000x128_S128x64_S5000x64_1_0_0_1_n_n.rhsIdx i c 0).val = (c ⟨0, by decide⟩).val :=
  dot_S5000x128_S128x64_S5000x64_1_0_0_1_n_n.rhsIdx_val_of_single rfl i c
/-- Coordinate 1 of the right operand's index is the output's column. -/
theorem rhs0_1 (i : S5000x64.Idx) (c : dot_S5000x128_S128x64_S5000x64_1_0_0_1_n_n.contr.Idx) :
    (dot_S5000x128_S128x64_S5000x64_1_0_0_1_n_n.rhsIdx i c 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- A product of whole blocks into the zero block, at (p, q): the sum over the 128 contracted coordinates. -/
theorem matmul0_apply (A : FVec Ideal S5000x128 .bf16) (B : FVec Ideal S128x64 .bf16) (p : Fin 5000) (q : Fin 64) :
    matmul dot_S5000x128_S128x64_S5000x64_1_0_0_1_n_n none A B (constant S5000x64 .f32 0x00000000#32) (ValueIdx.ix2 p q)
      = ∑ k : Fin 128, A (ValueIdx.ix2 p k) * B (ValueIdx.ix2 k q) := by
  refine (Ideal.matmul_constant_zero_apply dot_S5000x128_S128x64_S5000x64_1_0_0_1_n_n none A B (ValueIdx.ix2 p q)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ValueIdx.ix2 p q) ((ValueIdx.contrEquiv1 dot_S5000x128_S128x64_S5000x64_1_0_0_1_n_n 128 rfl rfl).symm k) = ValueIdx.ix2 p k :=
    funext fun a => Fin.ext (by
      match a with
      | ⟨0, _⟩ => exact lhs0_0 _ _
      | ⟨1, _⟩ => exact (lhs0_1 _ _).trans hk)
  have er : dot_S5000x128_S128x64_S5000x64_1_0_0_1_n_n.rhsIdx (ValueIdx.ix2 p q) ((ValueIdx.contrEquiv1 dot_S5000x128_S128x64_S5000x64_1_0_0_1_n_n 128 rfl rfl).symm k) = ValueIdx.ix2 k q :=
    funext fun a => Fin.ext (by
      match a with
      | ⟨0, _⟩ => exact (rhs0_0 _ _).trans hk
      | ⟨1, _⟩ => exact rhs0_1 _ _)
  rw [el, er]

/-- Body 0's stored block at (p, q). -/
theorem out0_2_apply (x0 : Vec Ideal S5000x128 .f32) (x1 : Vec Ideal S128x64 .f32) (p : Fin 5000) (q : Fin 64) :
    out0_2 (F := Ideal) x0 x1 (ValueIdx.ix2 p q) = ∑ k : Fin 128, x0 (ValueIdx.ix2 p k) * x1 (ValueIdx.ix2 k q) := by
  rw [out0_2_eq]
  unfold k0_pay1
  exact matmul0_apply _ _ p q

/-! ## A one-row block laid along every row -/

/-- A one-row block of 64 entries, cast to its own shape and laid along each of the 5000 rows, reads its row 0. -/
theorem row64_apply (v : Vec Ideal S1x64 .f32) (h : S1x64.ShapeCasts S1x64) (hb : S1x64.Broadcasts S5000x64)
    (p : Fin 5000) (q : Fin 64) :
    broadcastTo S5000x64 (shapeCast S1x64 v h) hb (ValueIdx.ix2 p q) = v (ValueIdx.ix2 (0 : Fin 1) q) := by
  rw [shapeCast_self]
  exact ValueIdx.broadcastTo_1b_ab_apply v hb p q

/-! ## Body 1: an affine map of each entry, its positive part, then a matrix product -/

/-- The one whole-block store leaves the payload of the whole loaded blocks. -/
theorem out1_4_eq (x0 : Vec Ideal S5000x64 .f32) (x1 x2 : Vec Ideal S1x64 .f32) (x3 : Vec Ideal S64x64 .f32) :
    out1_4 (F := Ideal) x0 x1 x2 x3 = k1_pay1 (F := Ideal) x0 x1 x2 x3 := by
  unfold out1_4
  rw [View.canon_unit_zero off_zero]
  simp only [View.ld_unit_zero (S := S5000x64) off_zero, View.ld_unit_zero (S := S1x64) off_zero,
    View.ld_unit_zero (S := S64x64) off_zero]

/-- Coordinate 0 of the left operand's index is the output's row. -/
theorem lhs1_0 (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
/-- Coordinate 1 of the left operand's index is the contracted coordinate. -/
theorem lhs1_1 (i : S5000x64.Idx) (c : dot_S5000x64_S64x64_S5000x64_1_0_0_1_n_n.contr.Idx) :
    (dot_S5000x64_S64x64_S5000x64_1_0_0_1_n_n.lhsIdx i c 1).val = (c ⟨0, by decide⟩).val :=
  dot_S5000x64_S64x64_S5000x64_1_0_0_1_n_n.lhsIdx_val_of_single rfl i c
/-- Coordinate 0 of the right operand's index is the contracted coordinate. -/
theorem rhs1_0 (i : S5000x64.Idx) (c : dot_S5000x64_S64x64_S5000x64_1_0_0_1_n_n.contr.Idx) :
    (dot_S5000x64_S64x64_S5000x64_1_0_0_1_n_n.rhsIdx i c 0).val = (c ⟨0, by decide⟩).val :=
  dot_S5000x64_S64x64_S5000x64_1_0_0_1_n_n.rhsIdx_val_of_single rfl i c
/-- Coordinate 1 of the right operand's index is the output's column. -/
theorem rhs1_1 (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A product of whole blocks into the zero block, at (p, q): the sum over the 64 contracted coordinates. -/
theorem matmul1_apply (A : FVec Ideal S5000x64 .bf16) (B : FVec Ideal S64x64 .bf16) (p : Fin 5000) (q : Fin 64) :
    matmul dot_S5000x64_S64x64_S5000x64_1_0_0_1_n_n none A B (constant S5000x64 .f32 0x00000000#32) (ValueIdx.ix2 p q)
      = ∑ k : Fin 64, A (ValueIdx.ix2 p k) * B (ValueIdx.ix2 k q) := by
  refine (Ideal.matmul_constant_zero_apply dot_S5000x64_S64x64_S5000x64_1_0_0_1_n_n none A B (ValueIdx.ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ValueIdx.ix2 p q) ((ValueIdx.contrEquiv1 dot_S5000x64_S64x64_S5000x64_1_0_0_1_n_n 64 rfl rfl).symm k) = ValueIdx.ix2 p k :=
    funext fun a => Fin.ext (by
      match a with
      | ⟨0, _⟩ => exact lhs1_0 _ _
      | ⟨1, _⟩ => exact (lhs1_1 _ _).trans hk)
  have er : dot_S5000x64_S64x64_S5000x64_1_0_0_1_n_n.rhsIdx (ValueIdx.ix2 p q) ((ValueIdx.contrEquiv1 dot_S5000x64_S64x64_S5000x64_1_0_0_1_n_n 64 rfl rfl).symm k) = ValueIdx.ix2 k q :=
    funext fun a => Fin.ext (by
      match a with
      | ⟨0, _⟩ => exact (rhs1_0 _ _).trans hk
      | ⟨1, _⟩ => exact rhs1_1 _ _)
  rw [el, er]

/-- Body 1's stored block at (p, q). -/
theorem out1_4_apply (x0 : Vec Ideal S5000x64 .f32) (x1 x2 : Vec Ideal S1x64 .f32) (x3 : Vec Ideal S64x64 .f32)
    (p : Fin 5000) (q : Fin 64) :
    out1_4 (F := Ideal) x0 x1 x2 x3 (ValueIdx.ix2 p q)
      = ∑ k : Fin 64, max (x0 (ValueIdx.ix2 p k) * x1 (ValueIdx.ix2 (0 : Fin 1) k) + x2 (ValueIdx.ix2 (0 : Fin 1) k))
          (Ideal.ofBits .f32 0x00000000#32) * x3 (ValueIdx.ix2 k q) := by
  rw [out1_4_eq]
  unfold k1_pay1
  refine (matmul1_apply _ _ p q).trans ?_
  refine Finset.sum_congr rfl fun k _ => ?_
  show max (shapeCast S5000x64 x0 _ (ValueIdx.ix2 p k)
        * broadcastTo S5000x64 (shapeCast S1x64 x1 _) _ (ValueIdx.ix2 p k)
        + broadcastTo S5000x64 (shapeCast S1x64 x2 _) _ (ValueIdx.ix2 p k))
      (Ideal.ofBits .f32 0x00000000#32) * x3 (ValueIdx.ix2 k q) = _
  rw [row64_apply, row64_apply, shapeCast_self]

/-! ## Body 2: an affine map of each entry, its positive part, then a matrix product -/

/-- The one whole-block store leaves the payload of the whole loaded blocks. -/
theorem out2_4_eq (x0 : Vec Ideal S5000x64 .f32) (x1 x2 : Vec Ideal S1x64 .f32) (x3 : Vec Ideal S64x16 .f32) :
    out2_4 (F := Ideal) x0 x1 x2 x3 = k2_pay1 (F := Ideal) x0 x1 x2 x3 := by
  unfold out2_4
  rw [View.canon_unit_zero off_zero]
  simp only [View.ld_unit_zero (S := S5000x64) off_zero, View.ld_unit_zero (S := S1x64) off_zero,
    View.ld_unit_zero (S := S64x16) off_zero]

/-- Coordinate 0 of the left operand's index is the output's row. -/
theorem lhs2_0 (i : S5000x16.Idx) (c : dot_S5000x64_S64x16_S5000x16_1_0_0_1_n_n.contr.Idx) :
    (dot_S5000x64_S64x16_S5000x16_1_0_0_1_n_n.lhsIdx i c 0).val = (i 0).val := by
  unfold DotDims.lhsIdx
  rw [dif_neg (show ¬(0 : Fin S5000x64.rank) ∈ dot_S5000x64_S64x16_S5000x16_1_0_0_1_n_n.lhsBatch by decide),
    dif_pos (show (0 : Fin S5000x64.rank) ∈ dot_S5000x64_S64x16_S5000x16_1_0_0_1_n_n.lhsNonContracting by decide)]
  rfl
/-- Coordinate 1 of the left operand's index is the contracted coordinate. -/
theorem lhs2_1 (i : S5000x16.Idx) (c : dot_S5000x64_S64x16_S5000x16_1_0_0_1_n_n.contr.Idx) :
    (dot_S5000x64_S64x16_S5000x16_1_0_0_1_n_n.lhsIdx i c 1).val = (c ⟨0, by decide⟩).val :=
  dot_S5000x64_S64x16_S5000x16_1_0_0_1_n_n.lhsIdx_val_of_single rfl i c
/-- Coordinate 0 of the right operand's index is the contracted coordinate. -/
theorem rhs2_0 (i : S5000x16.Idx) (c : dot_S5000x64_S64x16_S5000x16_1_0_0_1_n_n.contr.Idx) :
    (dot_S5000x64_S64x16_S5000x16_1_0_0_1_n_n.rhsIdx i c 0).val = (c ⟨0, by decide⟩).val :=
  dot_S5000x64_S64x16_S5000x16_1_0_0_1_n_n.rhsIdx_val_of_single rfl i c
/-- Coordinate 1 of the right operand's index is the output's column. -/
theorem rhs2_1 (i : S5000x16.Idx) (c : dot_S5000x64_S64x16_S5000x16_1_0_0_1_n_n.contr.Idx) :
    (dot_S5000x64_S64x16_S5000x16_1_0_0_1_n_n.rhsIdx i c 1).val = (i 1).val := by
  unfold DotDims.rhsIdx
  rw [dif_neg (show ¬(1 : Fin S64x16.rank) ∈ dot_S5000x64_S64x16_S5000x16_1_0_0_1_n_n.rhsBatch by decide),
    dif_pos (show (1 : Fin S64x16.rank) ∈ dot_S5000x64_S64x16_S5000x16_1_0_0_1_n_n.rhsNonContracting by decide)]
  rfl

/-- A product of whole blocks into the zero block, at (p, q): the sum over the 64 contracted coordinates. -/
theorem matmul2_apply (A : FVec Ideal S5000x64 .bf16) (B : FVec Ideal S64x16 .bf16) (p : Fin 5000) (q : Fin 16) :
    matmul dot_S5000x64_S64x16_S5000x16_1_0_0_1_n_n none A B (constant S5000x16 .f32 0x00000000#32) (ValueIdx.ix2 p q)
      = ∑ k : Fin 64, A (ValueIdx.ix2 p k) * B (ValueIdx.ix2 k q) := by
  refine (Ideal.matmul_constant_zero_apply dot_S5000x64_S64x16_S5000x16_1_0_0_1_n_n none A B (ValueIdx.ix2 p q)).trans ?_
  rw [← Equiv.sum_comp (ValueIdx.contrEquiv1 dot_S5000x64_S64x16_S5000x16_1_0_0_1_n_n 64 rfl rfl).symm]
  refine Finset.sum_congr rfl fun k _ => ?_
  have hk := ValueIdx.contrEquiv1_symm_val dot_S5000x64_S64x16_S5000x16_1_0_0_1_n_n 64 rfl rfl k
  have el : dot_S5000x64_S64x16_S5000x16_1_0_0_1_n_n.lhsIdx (ValueIdx.ix2 p q) ((ValueIdx.contrEquiv1 dot_S5000x64_S64x16_S5000x16_1_0_0_1_n_n 64 rfl rfl).symm k) = ValueIdx.ix2 p k :=
    funext fun a => Fin.ext (by
      match a with
      | ⟨0, _⟩ => exact lhs2_0 _ _
      | ⟨1, _⟩ => exact (lhs2_1 _ _).trans hk)
  have er : dot_S5000x64_S64x16_S5000x16_1_0_0_1_n_n.rhsIdx (ValueIdx.ix2 p q) ((ValueIdx.contrEquiv1 dot_S5000x64_S64x16_S5000x16_1_0_0_1_n_n 64 rfl rfl).symm k) = ValueIdx.ix2 k q :=
    funext fun a => Fin.ext (by
      match a with
      | ⟨0, _⟩ => exact (rhs2_0 _ _).trans hk
      | ⟨1, _⟩ => exact rhs2_1 _ _)
  rw [el, er]

/-- Body 2's stored block at (p, q). -/
theorem out2_4_apply (x0 : Vec Ideal S5000x64 .f32) (x1 x2 : Vec Ideal S1x64 .f32) (x3 : Vec Ideal S64x16 .f32)
    (p : Fin 5000) (q : Fin 16) :
    out2_4 (F := Ideal) x0 x1 x2 x3 (ValueIdx.ix2 p q)
      = ∑ k : Fin 64, max (x0 (ValueIdx.ix2 p k) * x1 (ValueIdx.ix2 (0 : Fin 1) k) + x2 (ValueIdx.ix2 (0 : Fin 1) k))
          (Ideal.ofBits .f32 0x00000000#32) * x3 (ValueIdx.ix2 k q) := by
  rw [out2_4_eq]
  unfold k2_pay1
  refine (matmul2_apply _ _ p q).trans ?_
  refine Finset.sum_congr rfl fun k _ => ?_
  show max (shapeCast S5000x64 x0 _ (ValueIdx.ix2 p k)
        * broadcastTo S5000x64 (shapeCast S1x64 x1 _) _ (ValueIdx.ix2 p k)
        + broadcastTo S5000x64 (shapeCast S1x64 x2 _) _ (ValueIdx.ix2 p k))
      (Ideal.ofBits .f32 0x00000000#32) * x3 (ValueIdx.ix2 k q) = _
  rw [row64_apply, row64_apply, shapeCast_self]

/-! ## Body 3: an affine map of each entry, then the logistic function -/

/-- The one whole-block store leaves the payload of the whole loaded blocks. -/
theorem out3_3_eq (x0 : Vec Ideal S5000x16 .f32) (x1 x2 : Vec Ideal S1x16 .f32) :
    out3_3 (F := Ideal) x0 x1 x2 = k3_pay1 (F := Ideal) x0 x1 x2 := by
  unfold out3_3
  rw [View.canon_unit_zero off_zero]
  simp only [View.ld_unit_zero (S := S5000x16) off_zero, View.ld_unit_zero (S := S1x16) off_zero]

/-- A one-row block of 16 entries, cast to its own shape and laid along each of the 5000 rows, reads its row 0. -/
theorem row16_apply (v : Vec Ideal S1x16 .f32) (h : S1x16.ShapeCasts S1x16) (hb : S1x16.Broadcasts S5000x16)
    (p : Fin 5000) (q : Fin 16) :
    broadcastTo S5000x16 (shapeCast S1x16 v h) hb (ValueIdx.ix2 p q) = v (ValueIdx.ix2 (0 : Fin 1) q) := by
  rw [shapeCast_self]
  exact ValueIdx.broadcastTo_1b_ab_apply v hb p q

/-- Body 3's stored block at (p, q). -/
theorem out3_3_apply (x0 : Vec Ideal S5000x16 .f32) (x1 x2 : Vec Ideal S1x16 .f32) (p : Fin 5000) (q : Fin 16) :
    out3_3 (F := Ideal) x0 x1 x2 (ValueIdx.ix2 p q)
      = Ideal.logistic (x0 (ValueIdx.ix2 p q) * x1 (ValueIdx.ix2 (0 : Fin 1) q) + x2 (ValueIdx.ix2 (0 : Fin 1) q)) := by
  rw [out3_3_eq]
  unfold k3_pay1
  show Ideal.logistic (shapeCast S5000x16 x0 _ (ValueIdx.ix2 p q)
      * broadcastTo S5000x16 (shapeCast S1x16 x1 _) _ (ValueIdx.ix2 p q)
      + broadcastTo S5000x16 (shapeCast S1x16 x2 _) _ (ValueIdx.ix2 p q)) = _
  rw [row16_apply, row16_apply, shapeCast_self]

end Cert.Bodies

end
-- ==== Proof.Spec.lean ====
/-
  The layer functions of a three-layer graph convolution, entry by entry, on the extended reals.

  A layer multiplies the node features by a weight matrix (`prod`), sends the rows along the edges and adds them up at
  the receiving nodes (that part is the same operations in both programs and is not named here), adds a bias row,
  normalizes each column with running statistics — g · (h − mu) · (v + eps)^(-1/2) + be — and applies the rectifier
  (`bnRelu`); the last layer adds its bias row and applies the logistic function (`biasSigm`).

  A kernel that folds the normalization into one scale row s = g · (v + eps)^(-1/2) and one shift row
  t = s · (b − mu) + be computes, per entry, max (a · s + t, 0) (`affRelu` over `scaleRow`, `shiftRow`); its last
  layer multiplies by a row of ones and adds the bias row before the logistic function (`affSigm` over `onesRow`,
  `rowOf`). Rows are kept as [1, n] arrays where a kernel holds them so, and as [n] vectors where the reference does.
-/
import Idealize.ShloMosaic.PureOps.Ideal
import Idealize.ShloMosaic.Lib.ValueIdx

noncomputable section

namespace Cert.Spec

open Idealize.ShloMosaic Idealize.ShloMosaic.ValueIdx

/-- An [a, b] array of extended reals. -/
abbrev Mat (a b : Nat) : Type := (⟨2, ![a, b]⟩ : Shape).Idx → EReal
/-- An [a] vector of extended reals. -/
abbrev Row (a : Nat) : Type := (⟨1, ![a]⟩ : Shape).Idx → EReal

/-- The float word of zero, of one, and of the normalization's epsilon (the f32 nearest 1e-5). -/
abbrev zeroW : EReal := Ideal.ofBits .f32 0x00000000#32
abbrev oneW : EReal := Ideal.ofBits .f32 0x3F800000#32
abbrev epsW : EReal := Ideal.ofBits .f32 0x3727C5AC#32

/-- Rows times columns: at (r, c) the sum over k of X(r, k) · W(k, c). -/
def prod {M K N : Nat} (X : Mat M K) (W : Mat K N) : Mat M N :=
  fun i => ∑ k : Fin K, X (ix2 (i 0) k) * W (ix2 k (i 1))

/-- One scale row and one shift row applied to every row, then the rectifier. -/
def affRelu {M N : Nat} (A : Mat M N) (s t : Mat 1 N) : Mat M N :=
  fun i => max (A i * s (ix2 (0 : Fin 1) (i 1)) + t (ix2 (0 : Fin 1) (i 1))) zeroW

/-- One scale row and one shift row applied to every row, then the logistic function. -/
def affSigm {M N : Nat} (A : Mat M N) (s t : Mat 1 N) : Mat M N :=
  fun i => Ideal.logistic (A i * s (ix2 (0 : Fin 1) (i 1)) + t (ix2 (0 : Fin 1) (i 1)))

/-- Bias, normalization of each column with running mean `mu` and variance `v`, scale `g` and offset `be`, then the
    rectifier: max (g · ((a + b) − mu) · (v + eps)^(-1/2) + be, 0), in the reference's order of operations. -/
def bnRelu {M N : Nat} (A : Mat M N) (b mu g v be : Row N) : Mat M N :=
  fun i => max ((g (ix1 (i 1)) * ((A i + b (ix1 (i 1))) - mu (ix1 (i 1)))) * Ideal.rsqrt (v (ix1 (i 1)) + epsW)
    + be (ix1 (i 1))) zeroW

/-- Bias, then the logistic function. -/
def biasSigm {M N : Nat} (A : Mat M N) (b : Row N) : Mat M N :=
  fun i => Ideal.logistic (A i + b (ix1 (i 1)))

/-- The folded scale row g · (v + eps)^(-1/2), as a [1, n] array. -/
def scaleRow {N : Nat} (g v : Row N) : Mat 1 N :=
  fun j => g (ix1 (j 1)) * Ideal.rsqrt (v (ix1 (j 1)) + epsW)

/-- The folded shift row s · (b − mu) + be with s the scale row, as a [1, n] array. -/
def shiftRow {N : Nat} (b mu g v be : Row N) : Mat 1 N :=
  fun j => (g (ix1 (j 1)) * Ideal.rsqrt (v (ix1 (j 1)) + epsW)) * (b (ix1 (j 1)) - mu (ix1 (j 1))) + be (ix1 (j 1))

/-- A row of ones, as a [1, n] array. -/
def onesRow {N : Nat} : Mat 1 N := fun _ => oneW

/-- An [n] vector as a [1, n] array. -/
def rowOf {N : Nat} (b : Row N) : Mat 1 N := fun j => b (ix1 (j 1))

end Cert.Spec

end
-- ==== Proof.Legs.lean ====
/- From tiles to arrays.

   Each of the four kernels walks the 100000 rows in 20 tiles of 5000 rows. At point t it reads row
   tile t of its first operand and the whole of every other operand, and writes row tile t of its
   result. What the body leaves in the result's tile is known entry by entry: a matrix product, an
   affine map and rectifier followed by a matrix product, or an affine map followed by the logistic
   function, of the tiles it read. Row p of tile t is row 5000 t + p of the array, and every one of
   these layer functions computes row r of its result from row r of its first operand and the whole
   of the others; so tile t of the result is tile t of ONE function of the operand arrays. The 20
   tiles cover the result array (row r lies in the tile of point r / 5000), hence after the region
   the result array is that function of the operand arrays as the region found them. -/
import proofs.«142197_j25941602468495_1_alg».proof.Proof.Gen.KernelIdeal.Frame
import proofs.«142197_j25941602468495_1_alg».proof.Proof.Bodies
import proofs.«142197_j25941602468495_1_alg».proof.Proof.Spec
import Idealize.ShloMosaic.Lib.Pipeline.Value
import Idealize.ShloMosaic.Lib.ValueIdx

noncomputable section

namespace Cert.Legs

open Idealize.ShloMosaic Idealize.ShloMosaic.TcCoe
open Cert.KernelIdeal Cert.KernelIdeal.Gen

variable (V : (c : Dev nD) → (b : Ref sig .tc) → Buf (Elt Ideal) ((c : Thread nD τ).loc b))

/-! ## Region 0 -/

theorem arr0_0 : Pipeline.arrRef spec0 0 = main_arg0 := rfl
theorem arr0_1 : Pipeline.arrRef spec0 1 = main_arg2 := rfl
theorem arr0_2 : Pipeline.arrRef spec0 2 = main_v32 := rfl

/-- The index maps over the grid: point t takes row tile t of the first operand and of the result, and the whole of every other operand. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of operand 0's tile t is row 5000 t + p of its array. -/
theorem blk0_0_apply (c : Dev nD) (t : Fin cfg0.N) (p : Fin 5000) (k : Fin 128) (i : S100000x128.Idx)
    (h0 : (i 0).val = t.val * 5000 + p.val) (h1 : (i 1).val = k.val) :
    (iblk0 V c 0 t : Vec Ideal S5000x128 .f32) (ValueIdx.ix2 p k)
      = (V c (Pipeline.arrRef spec0 0) : S100000x128.Idx → EReal) i := by
  obtain ⟨e0, e1, -⟩ := idx0 t
  have e : ((cfg0.win 0).blk t).view.emb (ValueIdx.ix2 p k) = i := by
    funext a; apply Fin.ext
    match a with
    | ⟨0, _⟩ => show win0_0.index t (0 : Fin 2) * 5000 + 1 * p.val = (i 0).val; omega
    | ⟨1, _⟩ => show win0_0.index t (1 : Fin 2) * 128 + 1 * k.val = (i 1).val; omega
  show V c (Pipeline.arrRef spec0 0) (((cfg0.win 0).blk t).view.emb (ValueIdx.ix2 p k)) = _
  rw [e]

/-- Operand 1's one tile is its array. -/
theorem blk0_1_apply (c : Dev nD) (t : Fin cfg0.N) (r : Fin 128) (k : Fin 64) (i : S128x64.Idx)
    (h0 : (i 0).val = r.val) (h1 : (i 1).val = k.val) :
    (iblk0 V c 1 t : Vec Ideal S128x64 .f32) (ValueIdx.ix2 r k)
      = (V c (Pipeline.arrRef spec0 1) : S128x64.Idx → EReal) i := by
  obtain ⟨-, -, e0, e1, -⟩ := idx0 t
  have e : ((cfg0.win 1).blk t).view.emb (ValueIdx.ix2 r k) = i := by
    funext a; apply Fin.ext
    match a with
    | ⟨0, _⟩ => show win0_1.index t (0 : Fin 2) * 128 + 1 * r.val = (i 0).val; omega
    | ⟨1, _⟩ => show win0_1.index t (1 : Fin 2) * 64 + 1 * k.val = (i 1).val; omega
  show V c (Pipeline.arrRef spec0 1) (((cfg0.win 1).blk t).view.emb (ValueIdx.ix2 r k)) = _
  rw [e]

/-- An index of the result array is in point t's tile iff each coordinate is in the tile's range. -/
theorem mem_blk0 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v32).slice (win0_2.rect t)).set ↔ _
  rw [View.set_slice_whole, Rect.mem_set_unit]
  exact Iff.rfl

/-- Row r of the result is in the tile of point r / 5000. -/
theorem cover0 (i : S100000x64.Idx) :
    ∃ t : Fin cfg0.N, (cfg0.win 2).flush t = true ∧ i ∈ ((cfg0.win 2).blk t).view.set := by
  have hN : grid0.N = 20 := N_0
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by show _ < grid0.N; omega⟩, rfl⟩
  obtain ⟨-, -, -, -, e0, e1⟩ := idx0 t
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- Entry (p, q) of what point t's body leaves is entry (5000 t + p, q) of the product of the operand arrays. -/
theorem tile0 (c : Dev nD) (t : Fin cfg0.N) (p : Fin 5000) (q : Fin 64) (i : S100000x64.Idx)
    (h0 : (i 0).val = t.val * 5000 + p.val) (h1 : (i 1).val = q.val) :
    out0_2 (F := Ideal) (iblk0 V c 0 t) (iblk0 V c 1 t) (ValueIdx.ix2 p q)
      = Spec.prod (M := 100000) (K := 128) (N := 64) (V c (Pipeline.arrRef spec0 0)) (V c (Pipeline.arrRef spec0 1)) i := by
  refine (Cert.Bodies.out0_2_apply (iblk0 V c 0 t) (iblk0 V c 1 t) p q).trans ?_
  unfold Spec.prod
  refine Finset.sum_congr rfl fun k _ => ?_
  rw [blk0_0_apply V c t p k (ValueIdx.ix2 (i 0) k) h0 rfl, blk0_1_apply V c t k q (ValueIdx.ix2 k (i 1)) rfl h1]

/-- What point t writes back is tile t of the product of the operand arrays. -/
theorem flushed0 (c : Dev nD) (t : Fin cfg0.N) :
    (dat0 (F := Ideal) V c).flushed 2 t = ((cfg0.win 2).blk t).view.read (Elt Ideal)
      (Spec.prod (M := 100000) (K := 128) (N := 64) (V c (Pipeline.arrRef spec0 0)) (V c (Pipeline.arrRef spec0 1))) := by
  show (cfg0.win 2).cut (grid0.coords t) ((dat0 V c).after 2 t) = _
  rw [after0_2]
  funext j
  obtain ⟨p, q, rfl⟩ : ∃ (p : Fin 5000) (q : Fin 64), j = ValueIdx.ix2 p q := ⟨j 0, j 1, ValueIdx.eq_ix2 j⟩
  obtain ⟨-, -, -, -, e4, e5⟩ := idx0 t
  show out0_2 (F := Ideal) (iblk0 V c 0 t) (iblk0 V c 1 t) (ValueIdx.ix2 p q)
    = Spec.prod (M := 100000) (K := 128) (N := 64) (V c (Pipeline.arrRef spec0 0)) (V c (Pipeline.arrRef spec0 1))
        (((cfg0.win 2).blk t).view.emb (ValueIdx.ix2 p q))
  refine tile0 V c t p q _ ?_ ?_
  · show win0_2.index t (0 : Fin 2) * 5000 + 1 * p.val = t.val * 5000 + p.val
    omega
  · show win0_2.index t (1 : Fin 2) * 64 + 1 * q.val = q.val
    omega

/-- After the region the result array is the product of the operand arrays as the region found them. -/
theorem leg0 (c : Dev nD) : (dat0 (F := Ideal) V c).arrAt 2 cfg0.N
    = Spec.prod (M := 100000) (K := 128) (N := 64) (V c (Pipeline.arrRef spec0 0)) (V c (Pipeline.arrRef spec0 1)) :=
  (dat0 V c).arrAt_eq_of_cover 2 _ (fun t _ => flushed0 V c t) cover0

/-! ## Region 1 -/

theorem arr1_0 : Pipeline.arrRef spec1 0 = main_v45 := rfl
theorem arr1_1 : Pipeline.arrRef spec1 1 = main_v53 := rfl
theorem arr1_2 : Pipeline.arrRef spec1 2 = main_v54 := rfl
theorem arr1_3 : Pipeline.arrRef spec1 3 = main_arg4 := rfl
theorem arr1_4 : Pipeline.arrRef spec1 4 = main_v55 := rfl

/-- The index maps over the grid: point t takes row tile t of the first operand and of the result, and the whole of every other operand. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of operand 0's tile t is row 5000 t + p of its array. -/
theorem blk1_0_apply (c : Dev nD) (t : Fin cfg1.N) (p : Fin 5000) (k : Fin 64) (i : S100000x64.Idx)
    (h0 : (i 0).val = t.val * 5000 + p.val) (h1 : (i 1).val = k.val) :
    (iblk1 V c 0 t : Vec Ideal S5000x64 .f32) (ValueIdx.ix2 p k)
      = (V c (Pipeline.arrRef spec1 0) : S100000x64.Idx → EReal) i := by
  obtain ⟨e0, e1, -⟩ := idx1 t
  have e : ((cfg1.win 0).blk t).view.emb (ValueIdx.ix2 p k) = i := by
    funext a; apply Fin.ext
    match a with
    | ⟨0, _⟩ => show win1_0.index t (0 : Fin 2) * 5000 + 1 * p.val = (i 0).val; omega
    | ⟨1, _⟩ => show win1_0.index t (1 : Fin 2) * 64 + 1 * k.val = (i 1).val; omega
  show V c (Pipeline.arrRef spec1 0) (((cfg1.win 0).blk t).view.emb (ValueIdx.ix2 p k)) = _
  rw [e]

/-- Operand 1's one tile is its array. -/
theorem blk1_1_apply (c : Dev nD) (t : Fin cfg1.N) (r : Fin 1) (k : Fin 64) (i : S1x64.Idx)
    (h0 : (i 0).val = r.val) (h1 : (i 1).val = k.val) :
    (iblk1 V c 1 t : Vec Ideal S1x64 .f32) (ValueIdx.ix2 r k)
      = (V c (Pipeline.arrRef spec1 1) : S1x64.Idx → EReal) i := by
  obtain ⟨-, -, e0, e1, -⟩ := idx1 t
  have e : ((cfg1.win 1).blk t).view.emb (ValueIdx.ix2 r k) = i := by
    funext a; apply Fin.ext
    match a with
    | ⟨0, _⟩ => show win1_1.index t (0 : Fin 2) * 1 + 1 * r.val = (i 0).val; omega
    | ⟨1, _⟩ => show win1_1.index t (1 : Fin 2) * 64 + 1 * k.val = (i 1).val; omega
  show V c (Pipeline.arrRef spec1 1) (((cfg1.win 1).blk t).view.emb (ValueIdx.ix2 r k)) = _
  rw [e]

/-- Operand 2's one tile is its array. -/
theorem blk1_2_apply (c : Dev nD) (t : Fin cfg1.N) (r : Fin 1) (k : Fin 64) (i : S1x64.Idx)
    (h0 : (i 0).val = r.val) (h1 : (i 1).val = k.val) :
    (iblk1 V c 2 t : Vec Ideal S1x64 .f32) (ValueIdx.ix2 r k)
      = (V c (Pipeline.arrRef spec1 2) : S1x64.Idx → EReal) i := by
  obtain ⟨-, -, -, -, e0, e1, -⟩ := idx1 t
  have e : ((cfg1.win 2).blk t).view.emb (ValueIdx.ix2 r k) = i := by
    funext a; apply Fin.ext
    match a with
    | ⟨0, _⟩ => show win1_2.index t (0 : Fin 2) * 1 + 1 * r.val = (i 0).val; omega
    | ⟨1, _⟩ => show win1_2.index t (1 : Fin 2) * 64 + 1 * k.val = (i 1).val; omega
  show V c (Pipeline.arrRef spec1 2) (((cfg1.win 2).blk t).view.emb (ValueIdx.ix2 r k)) = _
  rw [e]

/-- Operand 3's one tile is its array. -/
theorem blk1_3_apply (c : Dev nD) (t : Fin cfg1.N) (r : Fin 64) (k : Fin 64) (i : S64x64.Idx)
    (h0 : (i 0).val = r.val) (h1 : (i 1).val = k.val) :
    (iblk1 V c 3 t : Vec Ideal S64x64 .f32) (ValueIdx.ix2 r k)
      = (V c (Pipeline.arrRef spec1 3) : S64x64.Idx → EReal) i := by
  obtain ⟨-, -, -, -, -, -, e0, e1, -⟩ := idx1 t
  have e : ((cfg1.win 3).blk t).view.emb (ValueIdx.ix2 r k) = i := by
    funext a; apply Fin.ext
    match a with
    | ⟨0, _⟩ => show win1_3.index t (0 : Fin 2) * 64 + 1 * r.val = (i 0).val; omega
    | ⟨1, _⟩ => show win1_3.index t (1 : Fin 2) * 64 + 1 * k.val = (i 1).val; omega
  show V c (Pipeline.arrRef spec1 3) (((cfg1.win 3).blk t).view.emb (ValueIdx.ix2 r k)) = _
  rw [e]

/-- An index of the result array is in point t's tile iff each coordinate is in the tile's range. -/
theorem mem_blk1 (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v55).slice (win1_4.rect t)).set ↔ _
  rw [View.set_slice_whole, Rect.mem_set_unit]
  exact Iff.rfl

/-- Row r of the result is in the tile of point r / 5000. -/
theorem cover1 (i : S100000x64.Idx) :
    ∃ t : Fin cfg1.N, (cfg1.win 4).flush t = true ∧ i ∈ ((cfg1.win 4).blk t).view.set := by
  have hN : grid1.N = 20 := N_1
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, by show _ < grid1.N; omega⟩, rfl⟩
  obtain ⟨-, -, -, -, -, -, -, -, e0, e1⟩ := idx1 t
  refine ⟨t, flush1_4 t, ?_⟩
  rw [mem_blk1]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 64 ≤ (i 1).val ∧ (i 1).val < win1_4.index t (1 : Fin 2) * 64 + 64
    omega

/-- Entry (p, q) of what point t's body leaves is entry (5000 t + p, q) of the layer function of the operand arrays. -/
theorem tile1 (c : Dev nD) (t : Fin cfg1.N) (p : Fin 5000) (q : Fin 64) (i : S100000x64.Idx)
    (h0 : (i 0).val = t.val * 5000 + p.val) (h1 : (i 1).val = q.val) :
    out1_4 (F := Ideal) (iblk1 V c 0 t) (iblk1 V c 1 t) (iblk1 V c 2 t) (iblk1 V c 3 t) (ValueIdx.ix2 p q)
      = Spec.prod (M := 100000) (K := 64) (N := 64)
          (Spec.affRelu (M := 100000) (N := 64) (V c (Pipeline.arrRef spec1 0)) (V c (Pipeline.arrRef spec1 1))
            (V c (Pipeline.arrRef spec1 2)))
          (V c (Pipeline.arrRef spec1 3)) i := by
  refine (Cert.Bodies.out1_4_apply (iblk1 V c 0 t) (iblk1 V c 1 t) (iblk1 V c 2 t) (iblk1 V c 3 t) p q).trans ?_
  unfold Spec.prod Spec.affRelu
  refine Finset.sum_congr rfl fun k _ => ?_
  rw [blk1_0_apply V c t p k (ValueIdx.ix2 (i 0) k) h0 rfl,
    blk1_1_apply V c t 0 k (ValueIdx.ix2 (0 : Fin 1) k) rfl rfl,
    blk1_2_apply V c t 0 k (ValueIdx.ix2 (0 : Fin 1) k) rfl rfl,
    blk1_3_apply V c t k q (ValueIdx.ix2 k (i 1)) rfl h1]

/-- What point t writes back is tile t of the layer function of the operand arrays. -/
theorem flushed1 (c : Dev nD) (t : Fin cfg1.N) :
    (dat1 (F := Ideal) V c).flushed 4 t = ((cfg1.win 4).blk t).view.read (Elt Ideal)
      (Spec.prod (M := 100000) (K := 64) (N := 64)
          (Spec.affRelu (M := 100000) (N := 64) (V c (Pipeline.arrRef spec1 0)) (V c (Pipeline.arrRef spec1 1))
            (V c (Pipeline.arrRef spec1 2)))
          (V c (Pipeline.arrRef spec1 3))) := by
  show (cfg1.win 4).cut (grid1.coords t) ((dat1 V c).after 4 t) = _
  rw [after1_4]
  funext j
  obtain ⟨p, q, rfl⟩ : ∃ (p : Fin 5000) (q : Fin 64), j = ValueIdx.ix2 p q := ⟨j 0, j 1, ValueIdx.eq_ix2 j⟩
  obtain ⟨-, -, -, -, -, -, -, -, e0, e1⟩ := idx1 t
  show out1_4 (F := Ideal) (iblk1 V c 0 t) (iblk1 V c 1 t) (iblk1 V c 2 t) (iblk1 V c 3 t) (ValueIdx.ix2 p q)
    = Spec.prod (M := 100000) (K := 64) (N := 64)
          (Spec.affRelu (M := 100000) (N := 64) (V c (Pipeline.arrRef spec1 0)) (V c (Pipeline.arrRef spec1 1))
            (V c (Pipeline.arrRef spec1 2)))
          (V c (Pipeline.arrRef spec1 3)) (((cfg1.win 4).blk t).view.emb (ValueIdx.ix2 p q))
  refine tile1 V c t p q _ ?_ ?_
  · show win1_4.index t (0 : Fin 2) * 5000 + 1 * p.val = t.val * 5000 + p.val
    omega
  · show win1_4.index t (1 : Fin 2) * 64 + 1 * q.val = q.val
    omega

/-- After the region the result array is the layer function of the operand arrays as the region found them. -/
theorem leg1 (c : Dev nD) : (dat1 (F := Ideal) V c).arrAt 4 cfg1.N
    = Spec.prod (M := 100000) (K := 64) (N := 64)
          (Spec.affRelu (M := 100000) (N := 64) (V c (Pipeline.arrRef spec1 0)) (V c (Pipeline.arrRef spec1 1))
            (V c (Pipeline.arrRef spec1 2)))
          (V c (Pipeline.arrRef spec1 3)) :=
  (dat1 V c).arrAt_eq_of_cover 4 _ (fun t _ => flushed1 V c t) cover1

/-! ## Region 2 -/

theorem arr2_0 : Pipeline.arrRef spec2 0 = main_v68 := rfl
theorem arr2_1 : Pipeline.arrRef spec2 1 = main_v76 := rfl
theorem arr2_2 : Pipeline.arrRef spec2 2 = main_v77 := rfl
theorem arr2_3 : Pipeline.arrRef spec2 3 = main_arg6 := rfl
theorem arr2_4 : Pipeline.arrRef spec2 4 = main_v78 := rfl

/-- The index maps over the grid: point t takes row tile t of the first operand and of the result, and the whole of every other operand. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of operand 0's tile t is row 5000 t + p of its array. -/
theorem blk2_0_apply (c : Dev nD) (t : Fin cfg2.N) (p : Fin 5000) (k : Fin 64) (i : S100000x64.Idx)
    (h0 : (i 0).val = t.val * 5000 + p.val) (h1 : (i 1).val = k.val) :
    (iblk2 V c 0 t : Vec Ideal S5000x64 .f32) (ValueIdx.ix2 p k)
      = (V c (Pipeline.arrRef spec2 0) : S100000x64.Idx → EReal) i := by
  obtain ⟨e0, e1, -⟩ := idx2 t
  have e : ((cfg2.win 0).blk t).view.emb (ValueIdx.ix2 p k) = i := by
    funext a; apply Fin.ext
    match a with
    | ⟨0, _⟩ => show win2_0.index t (0 : Fin 2) * 5000 + 1 * p.val = (i 0).val; omega
    | ⟨1, _⟩ => show win2_0.index t (1 : Fin 2) * 64 + 1 * k.val = (i 1).val; omega
  show V c (Pipeline.arrRef spec2 0) (((cfg2.win 0).blk t).view.emb (ValueIdx.ix2 p k)) = _
  rw [e]

/-- Operand 1's one tile is its array. -/
theorem blk2_1_apply (c : Dev nD) (t : Fin cfg2.N) (r : Fin 1) (k : Fin 64) (i : S1x64.Idx)
    (h0 : (i 0).val = r.val) (h1 : (i 1).val = k.val) :
    (iblk2 V c 1 t : Vec Ideal S1x64 .f32) (ValueIdx.ix2 r k)
      = (V c (Pipeline.arrRef spec2 1) : S1x64.Idx → EReal) i := by
  obtain ⟨-, -, e0, e1, -⟩ := idx2 t
  have e : ((cfg2.win 1).blk t).view.emb (ValueIdx.ix2 r k) = i := by
    funext a; apply Fin.ext
    match a with
    | ⟨0, _⟩ => show win2_1.index t (0 : Fin 2) * 1 + 1 * r.val = (i 0).val; omega
    | ⟨1, _⟩ => show win2_1.index t (1 : Fin 2) * 64 + 1 * k.val = (i 1).val; omega
  show V c (Pipeline.arrRef spec2 1) (((cfg2.win 1).blk t).view.emb (ValueIdx.ix2 r k)) = _
  rw [e]

/-- Operand 2's one tile is its array. -/
theorem blk2_2_apply (c : Dev nD) (t : Fin cfg2.N) (r : Fin 1) (k : Fin 64) (i : S1x64.Idx)
    (h0 : (i 0).val = r.val) (h1 : (i 1).val = k.val) :
    (iblk2 V c 2 t : Vec Ideal S1x64 .f32) (ValueIdx.ix2 r k)
      = (V c (Pipeline.arrRef spec2 2) : S1x64.Idx → EReal) i := by
  obtain ⟨-, -, -, -, e0, e1, -⟩ := idx2 t
  have e : ((cfg2.win 2).blk t).view.emb (ValueIdx.ix2 r k) = i := by
    funext a; apply Fin.ext
    match a with
    | ⟨0, _⟩ => show win2_2.index t (0 : Fin 2) * 1 + 1 * r.val = (i 0).val; omega
    | ⟨1, _⟩ => show win2_2.index t (1 : Fin 2) * 64 + 1 * k.val = (i 1).val; omega
  show V c (Pipeline.arrRef spec2 2) (((cfg2.win 2).blk t).view.emb (ValueIdx.ix2 r k)) = _
  rw [e]

/-- Operand 3's one tile is its array. -/
theorem blk2_3_apply (c : Dev nD) (t : Fin cfg2.N) (r : Fin 64) (k : Fin 16) (i : S64x16.Idx)
    (h0 : (i 0).val = r.val) (h1 : (i 1).val = k.val) :
    (iblk2 V c 3 t : Vec Ideal S64x16 .f32) (ValueIdx.ix2 r k)
      = (V c (Pipeline.arrRef spec2 3) : S64x16.Idx → EReal) i := by
  obtain ⟨-, -, -, -, -, -, e0, e1, -⟩ := idx2 t
  have e : ((cfg2.win 3).blk t).view.emb (ValueIdx.ix2 r k) = i := by
    funext a; apply Fin.ext
    match a with
    | ⟨0, _⟩ => show win2_3.index t (0 : Fin 2) * 64 + 1 * r.val = (i 0).val; omega
    | ⟨1, _⟩ => show win2_3.index t (1 : Fin 2) * 16 + 1 * k.val = (i 1).val; omega
  show V c (Pipeline.arrRef spec2 3) (((cfg2.win 3).blk t).view.emb (ValueIdx.ix2 r k)) = _
  rw [e]

/-- An index of the result array is in point t's tile iff each coordinate is in the tile's range. -/
theorem mem_blk2 (t : Fin cfg2.N) (i : S100000x16.Idx) :
    i ∈ ((cfg2.win 4).blk t).view.set ↔ ∀ a : Fin 2, win2_4.index t a * S5000x16.size a ≤ (i a).val
      ∧ (i a).val < win2_4.index t a * S5000x16.size a + S5000x16.size a := by
  show i ∈ ((View.whole main_v78).slice (win2_4.rect t)).set ↔ _
  rw [View.set_slice_whole, Rect.mem_set_unit]
  exact Iff.rfl

/-- Row r of the result is in the tile of point r / 5000. -/
theorem cover2 (i : S100000x16.Idx) :
    ∃ t : Fin cfg2.N, (cfg2.win 4).flush t = true ∧ i ∈ ((cfg2.win 4).blk t).view.set := by
  have hN : grid2.N = 20 := N_2
  have hi0 : (i 0).val < 100000 := (i 0).isLt
  have hi1 : (i 1).val < 16 := (i 1).isLt
  obtain ⟨t, ht⟩ : ∃ t : Fin cfg2.N, t.val = (i 0).val / 5000 :=
    ⟨⟨(i 0).val / 5000, by show _ < grid2.N; omega⟩, rfl⟩
  obtain ⟨-, -, -, -, -, -, -, -, e0, e1⟩ := idx2 t
  refine ⟨t, flush2_4 t, ?_⟩
  rw [mem_blk2]
  intro a
  match a with
  | ⟨0, _⟩ =>
    show win2_4.index t (0 : Fin 2) * 5000 ≤ (i 0).val ∧ (i 0).val < win2_4.index t (0 : Fin 2) * 5000 + 5000
    omega
  | ⟨1, _⟩ =>
    show win2_4.index t (1 : Fin 2) * 16 ≤ (i 1).val ∧ (i 1).val < win2_4.index t (1 : Fin 2) * 16 + 16
    omega

/-- Entry (p, q) of what point t's body leaves is entry (5000 t + p, q) of the layer function of the operand arrays. -/
theorem tile2 (c : Dev nD) (t : Fin cfg2.N) (p : Fin 5000) (q : Fin 16) (i : S100000x16.Idx)
    (h0 : (i 0).val = t.val * 5000 + p.val) (h1 : (i 1).val = q.val) :
    out2_4 (F := Ideal) (iblk2 V c 0 t) (iblk2 V c 1 t) (iblk2 V c 2 t) (iblk2 V c 3 t) (ValueIdx.ix2 p q)
      = Spec.prod (M := 100000) (K := 64) (N := 16)
          (Spec.affRelu (M := 100000) (N := 64) (V c (Pipeline.arrRef spec2 0)) (V c (Pipeline.arrRef spec2 1))
            (V c (Pipeline.arrRef spec2 2)))
          (V c (Pipeline.arrRef spec2 3)) i := by
  refine (Cert.Bodies.out2_4_apply (iblk2 V c 0 t) (iblk2 V c 1 t) (iblk2 V c 2 t) (iblk2 V c 3 t) p q).trans ?_
  unfold Spec.prod Spec.affRelu
  refine Finset.sum_congr rfl fun k _ => ?_
  rw [blk2_0_apply V c t p k (ValueIdx.ix2 (i 0) k) h0 rfl,
    blk2_1_apply V c t 0 k (ValueIdx.ix2 (0 : Fin 1) k) rfl rfl,
    blk2_2_apply V c t 0 k (ValueIdx.ix2 (0 : Fin 1) k) rfl rfl,
    blk2_3_apply V c t k q (ValueIdx.ix2 k (i 1)) rfl h1]

/-- What point t writes back is tile t of the layer function of the operand arrays. -/
theorem flushed2 (c : Dev nD) (t : Fin cfg2.N) :
    (dat2 (F := Ideal) V c).flushed 4 t = ((cfg2.win 4).blk t).view.read (Elt Ideal)
      (Spec.prod (M := 100000) (K := 64) (N := 16)
          (Spec.affRelu (M := 100000) (N := 64) (V c (Pipeline.arrRef spec2 0)) (V c (Pipeline.arrRef spec2 1))
            (V c (Pipeline.arrRef spec2 2)))
          (V c (Pipeline.arrRef spec2 3))) := by
  show (cfg2.win 4).cut (grid2.coords t) ((dat2 V c).after 4 t) = _
  rw [after2_4]
  funext j
  obtain ⟨p, q, rfl⟩ : ∃ (p : Fin 5000) (q : Fin 16), j = ValueIdx.ix2 p q := ⟨j 0, j 1, ValueIdx.eq_ix2 j⟩
  obtain ⟨-, -, -, -, -, -, -, -, e0, e1⟩ := idx2 t
  show out2_4 (F := Ideal) (iblk2 V c 0 t) (iblk2 V c 1 t) (iblk2 V c 2 t) (iblk2 V c 3 t) (ValueIdx.ix2 p q)
    = Spec.prod (M := 100000) (K := 64) (N := 16)
          (Spec.affRelu (M := 100000) (N := 64) (V c (Pipeline.arrRef spec2 0)) (V c (Pipeline.arrRef spec2 1))
            (V c (Pipeline.arrRef spec2 2)))
          (V c (Pipeline.arrRef spec2 3)) (((cfg2.win 4).blk t).view.emb (ValueIdx.ix2 p q))
  refine tile2 V c t p q _ ?_ ?_
  · show win2_4.index t (0 : Fin 2) * 5000 + 1 * p.val = t.val * 5000 + p.val
    omega
  · show win2_4.index t (1 : Fin 2) * 16 + 1 * q.val = q.val
    omega

/-- After the region the result array is the layer function of the operand arrays as the region found them. -/
theorem leg2 (c : Dev nD) : (dat2 (F := Ideal) V c).arrAt 4 cfg2.N
    = Spec.prod (M := 100000) (K := 64) (N := 16)
          (Spec.affRelu (M := 100000) (N := 64) (V c (Pipeline.arrRef spec2 0)) (V c (Pipeline.arrRef spec2 1))
            (V c (Pipeline.arrRef spec2 2)))
          (V c (Pipeline.arrRef spec2 3)) :=
  (dat2 V c).arrAt_eq_of_cover 4 _ (fun t _ => flushed2 V c t) cover2

/-! ## Region 3 -/

theorem arr3_0 : Pipeline.arrRef spec3 0 = main_v91 := rfl
theorem arr3_1 : Pipeline.arrRef spec3 1 = main_v93 := rfl
theorem arr3_2 : Pipeline.arrRef spec3 2 = main_v94 := rfl
theorem arr3_3 : Pipeline.arrRef spec3 3 = main_v95 := rfl

/-- The index maps over the grid: point t takes row tile t of the first operand and of the result, and the whole of every other operand. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row p of operand 0's tile t is row 5000 t + p of its array. -/
theorem blk3_0_apply (c : Dev nD) (t : Fin cfg3.N) (p : Fin 5000) (k : Fin 16) (i : S100000x16.Idx)
    (h0 : (i 0).val = t.val * 5000 + p.val) (h1 : (i 1).val = k.val) :
    (iblk3 V c 0 t : Vec Ideal S5000x16 .f32) (ValueIdx.ix2 p k)
      = (V c (Pipeline.arrRef spec3 0) : S100000x16.Idx → EReal) i := by
  obtain ⟨e0, e1, -⟩ := idx3 t
  have e : ((cfg3.win 0).blk t).view.emb (ValueIdx.ix2 p k) = i := by
    funext a; apply Fin.ext
    match a with
    | ⟨0, _⟩ => show win3_0.index t (0 : Fin 2) * 5000 + 1 * p.val = (i 0).val; omega
    | ⟨1, _⟩ => show win3_0.index t (1 : Fin 2) * 16 + 1 * k.val = (i 1).val; omega
  show V c (Pipeline.arrRef spec3 0) (((cfg3.win 0).blk t).view.emb (ValueIdx.ix2 p k)) = _
  rw [e]

/-- Operand 1's one tile is its array. -/
theorem blk3_1_apply (c : Dev nD) (t : Fin cfg3.N) (r : Fin 1) (k : Fin 16) (i : S1x16.Idx)
    (h0 : (i 0).val = r.val) (h1 : (i 1).val = k.val) :
    (iblk3 V c 1 t : Vec Ideal S1x16 .f32) (ValueIdx.ix2 r k)
      = (V c (Pipeline.arrRef spec3 1) : S1x16.Idx → EReal) i := by
  obtain ⟨-, -, e0, e1, -⟩ := idx3 t
  have e : ((cfg3.win 1).blk t).view.emb (ValueIdx.ix2 r k) = i := by
    funext a; apply Fin.ext
    match a with
    | ⟨0, _⟩ => show win3_1.index t (0 : Fin 2) * 1 + 1 * r.val = (i 0).val; omega
    | ⟨1, _⟩ => show win3_1.index t (1 : Fin 2) * 16 + 1 * k.val = (i 1).val; omega
  show V c (Pipeline.arrRef spec3 1) (((cfg3.win 1).blk t).view.emb (ValueIdx.ix2 r k)) = _
  rw [e]

/-- Operand 2's one tile is its array. -/
theorem blk3_2_apply (c : Dev nD) (t : Fin cfg3.N) (r : Fin 1) (k : Fin 16) (i : S1x16.Idx)
    (h0 : (i 0).val = r.val) (h1 : (i 1).val = k.val) :
    (iblk3 V c 2 t : Vec Ideal S1x16 .f32) (ValueIdx.ix2 r k)
      = (V c (Pipeline.arrRef spec3 2) : S1x16.Idx → EReal) i := by
  obtain ⟨-, -, -, -, e0, e1, -⟩ := idx3 t
  have e : ((cfg3.win 2).blk t).view.emb (ValueIdx.ix2 r k) = i := by
    funext a; apply Fin.ext
    match a with
    | ⟨0, _⟩ => show win3_2.index t (0 : Fin 2) * 1 + 1 * r.val = (i 0).val; omega
    | ⟨1, _⟩ => show win3_2.index t (1 : Fin 2) * 16 + 1 * k.val = (i 1).val; omega
  show V c (Pipeline.arrRef spec3 2) (((cfg3.win 2).blk t).view.emb (ValueIdx.ix2 r k)) = _
  rw [e]

/-- An index of the result array is in point t's tile iff each coordinate is in the tile's range. -/
theorem mem_blk3 (t : Fin cfg3.N) (i : S100000x16.Idx) :
    i ∈ ((cfg3.win 3).blk t).view.set ↔ ∀ a : Fin 2, win3_3.index t a * S5000x16.size a ≤ (i a).val
      ∧ (i a).val < win3_3.index t a * S5000x16.size a + S5000x16.size a := by
  show i ∈ ((View.whole main_v95).slice (win3_3.rect t)).set ↔ _
  rw [View.set_slice_whole, Rect.mem_set_unit]
  exact Iff.rfl

/-- Row r of the result is in the tile of point r / 5000. -/
theorem cover3 (i : S100000x16.Idx) :
    ∃ t : Fin cfg3.N, (cfg3.win 3).flush t = true ∧ i ∈ ((cfg3.win 3).blk t).view.set := by
  have hN : grid3.N = 20 := N_3
  have hi0 : (i 0).val < 100000 := (i 0).isLt
  have hi1 : (i 1).val < 16 := (i 1).isLt
  obtain ⟨t, ht⟩ : ∃ t : Fin cfg3.N, t.val = (i 0).val / 5000 :=
    ⟨⟨(i 0).val / 5000, by show _ < grid3.N; omega⟩, rfl⟩
  obtain ⟨-, -, -, -, -, -, e0, e1⟩ := idx3 t
  refine ⟨t, flush3_3 t, ?_⟩
  rw [mem_blk3]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 16 ≤ (i 1).val ∧ (i 1).val < win3_3.index t (1 : Fin 2) * 16 + 16
    omega

/-- Entry (p, q) of what point t's body leaves is entry (5000 t + p, q) of the layer function of the operand arrays. -/
theorem tile3 (c : Dev nD) (t : Fin cfg3.N) (p : Fin 5000) (q : Fin 16) (i : S100000x16.Idx)
    (h0 : (i 0).val = t.val * 5000 + p.val) (h1 : (i 1).val = q.val) :
    out3_3 (F := Ideal) (iblk3 V c 0 t) (iblk3 V c 1 t) (iblk3 V c 2 t) (ValueIdx.ix2 p q)
      = Spec.affSigm (M := 100000) (N := 16) (V c (Pipeline.arrRef spec3 0)) (V c (Pipeline.arrRef spec3 1))
          (V c (Pipeline.arrRef spec3 2)) i := by
  refine (Cert.Bodies.out3_3_apply (iblk3 V c 0 t) (iblk3 V c 1 t) (iblk3 V c 2 t) p q).trans ?_
  unfold Spec.affSigm
  rw [blk3_0_apply V c t p q i h0 h1, blk3_1_apply V c t 0 q (ValueIdx.ix2 (0 : Fin 1) (i 1)) rfl h1,
    blk3_2_apply V c t 0 q (ValueIdx.ix2 (0 : Fin 1) (i 1)) rfl h1]

/-- What point t writes back is tile t of the layer function of the operand arrays. -/
theorem flushed3 (c : Dev nD) (t : Fin cfg3.N) :
    (dat3 (F := Ideal) V c).flushed 3 t = ((cfg3.win 3).blk t).view.read (Elt Ideal)
      (Spec.affSigm (M := 100000) (N := 16) (V c (Pipeline.arrRef spec3 0)) (V c (Pipeline.arrRef spec3 1))
        (V c (Pipeline.arrRef spec3 2))) := by
  show (cfg3.win 3).cut (grid3.coords t) ((dat3 V c).after 3 t) = _
  rw [after3_3]
  funext j
  obtain ⟨p, q, rfl⟩ : ∃ (p : Fin 5000) (q : Fin 16), j = ValueIdx.ix2 p q := ⟨j 0, j 1, ValueIdx.eq_ix2 j⟩
  obtain ⟨-, -, -, -, -, -, e0, e1⟩ := idx3 t
  show out3_3 (F := Ideal) (iblk3 V c 0 t) (iblk3 V c 1 t) (iblk3 V c 2 t) (ValueIdx.ix2 p q)
    = Spec.affSigm (M := 100000) (N := 16) (V c (Pipeline.arrRef spec3 0)) (V c (Pipeline.arrRef spec3 1))
        (V c (Pipeline.arrRef spec3 2)) (((cfg3.win 3).blk t).view.emb (ValueIdx.ix2 p q))
  refine tile3 V c t p q _ ?_ ?_
  · show win3_3.index t (0 : Fin 2) * 5000 + 1 * p.val = t.val * 5000 + p.val
    omega
  · show win3_3.index t (1 : Fin 2) * 16 + 1 * q.val = q.val
    omega

/-- After the region the result array is the layer function of the operand arrays as the region found them. -/
theorem leg3 (c : Dev nD) : (dat3 (F := Ideal) V c).arrAt 3 cfg3.N
    = Spec.affSigm (M := 100000) (N := 16) (V c (Pipeline.arrRef spec3 0)) (V c (Pipeline.arrRef spec3 1))
        (V c (Pipeline.arrRef spec3 2)) :=
  (dat3 V c).arrAt_eq_of_cover 3 _ (fun t _ => flushed3 V c t) cover3

end Cert.Legs

end
-- ==== Proof.BnLaw.lean ====
/-
  A folded batch-norm is an affine map, also at the infinities.

  A normalisation  y = g * ((A + b) - mu) * r + be  (scale g, bias b, mean mu, reciprocal standard
  deviation r, shift be) can be applied in the folded form  y = A * (g * r) + ((g * r) * (b - mu) + be).
  When g, r, b, mu and be are real numbers the two expressions are the same extended real for EVERY
  extended real A. For a real A this is the distributive law of the reals. For A = +inf or A = -inf
  write c = g * r (a real): (A + b) - mu = A, since adding a real to an infinity leaves it, and both
  sides are  A * c + (a real), which is  A * c  for c != 0 (an infinity absorbs a real summand) and is
  the real summand  be  for c = 0 (because 0 * inf = 0 in the extended reals, and c * (b - mu) = 0).

  Also here: the reciprocal square root of (a non-negative real + a positive real) is a real, and the
  single-precision word 0x3727C5AC (the float nearest 1e-5) denotes the positive real
  10995116 * 2^(-40).
-/
import Mathlib.Data.EReal.Basic
import Mathlib.Data.EReal.Operations
import Idealize.ShloMosaic.PureOps.Ideal

noncomputable section

namespace Cert.BnLaw

open Idealize.ShloMosaic

/-- The core: for reals c, d, be and any extended real A,
    A * c + (c * d + be) = (A + d) * c + be. -/
theorem affine_core (A : EReal) (c d be : ℝ) :
    A * (c : EReal) + ((c : EReal) * (d : EReal) + (be : EReal))
      = (A + (d : EReal)) * (c : EReal) + (be : EReal) := by
  induction A using EReal.rec with
  | bot =>
    rw [EReal.bot_add]
    rcases lt_trichotomy c 0 with hc | hc | hc
    · rw [EReal.bot_mul_coe_of_neg hc, ← EReal.coe_mul, ← EReal.coe_add, EReal.top_add_coe,
        EReal.top_add_coe]
    · subst hc; simp
    · rw [EReal.bot_mul_coe_of_pos hc, EReal.bot_add, EReal.bot_add]
  | coe a =>
    norm_cast
    ring
  | top =>
    rw [EReal.top_add_coe]
    rcases lt_trichotomy c 0 with hc | hc | hc
    · rw [EReal.top_mul_coe_of_neg hc, EReal.bot_add, EReal.bot_add]
    · subst hc; simp
    · rw [EReal.top_mul_coe_of_pos hc, ← EReal.coe_mul, ← EReal.coe_add, EReal.top_add_coe,
        EReal.top_add_coe]

/-- The folded form of a batch-norm with real parameters agrees with the unfolded one at every
    extended real A. -/
theorem affine_eq_bn (A : EReal) (g r b mu be : ℝ) :
    A * ((g : EReal) * (r : EReal)) + (((g : EReal) * (r : EReal)) * ((b : EReal) - (mu : EReal)) + (be : EReal))
      = (((g : EReal) * ((A + (b : EReal)) - (mu : EReal))) * (r : EReal)) + (be : EReal) := by
  have h1 : (A + (b : EReal)) - (mu : EReal) = A + ((b - mu : ℝ) : EReal) := by
    rw [EReal.coe_sub, sub_eq_add_neg, sub_eq_add_neg, add_assoc]
  have h2 : ((g : EReal) * (A + ((b - mu : ℝ) : EReal))) * (r : EReal)
      = (A + ((b - mu : ℝ) : EReal)) * ((g * r : ℝ) : EReal) := by
    rw [EReal.coe_mul, mul_comm (g : EReal) (A + _), mul_assoc]
  rw [h1, h2, ← EReal.coe_mul, ← EReal.coe_sub]
  exact affine_core A (g * r) (b - mu) be

/-- The reciprocal square root of a non-negative real plus a positive real is a real. -/
theorem rsqrt_real {v e : ℝ} (hv : 0 ≤ v) (he : 0 < e) :
    ∃ r : ℝ, Ideal.rsqrt ((v : EReal) + (e : EReal)) = (r : EReal) := by
  refine ⟨(Real.sqrt (v + e))⁻¹, ?_⟩
  rw [← EReal.coe_add, Ideal.rsqrt_coe, if_neg (by linarith), if_neg (by linarith)]

/-- The single-precision word 0x3727C5AC: sign 0, exponent field 110, fraction field 2606508, that
    is (2^23 + 2606508) * 2^(110 - 127 - 23) = 10995116 * 2^(-40). -/
theorem eps_word_eq :
    Ideal.ofBits .f32 0x3727C5AC#32 = (((10995116 : ℝ) * (2 : ℝ) ^ (-40 : ℤ) : ℝ) : EReal) := by
  simp [Ideal.ofBits, Ideal.ieee, -EReal.coe_mul]

/-- The word 0x3727C5AC denotes a positive real. -/
theorem eps_word : ∃ e : ℝ, 0 < e ∧ Ideal.ofBits .f32 0x3727C5AC#32 = (e : EReal) :=
  ⟨(10995116 : ℝ) * (2 : ℝ) ^ (-40 : ℤ), by positivity, eps_word_eq⟩

/-- The same law over extended-real parameters known to be real (the variance non-negative), with the
    reciprocal standard deviation spelled as the reciprocal square root of variance + epsilon. -/
theorem affine_eq_bn_ops (A g b mu v be : EReal) (hg : ∃ x : ℝ, g = x) (hb : ∃ x : ℝ, b = x)
    (hmu : ∃ x : ℝ, mu = x) (hbe : ∃ x : ℝ, be = x) (hv : ∃ x : ℝ, 0 ≤ x ∧ v = x) :
    A * (g * Ideal.rsqrt (v + Ideal.ofBits .f32 0x3727C5AC#32))
        + ((g * Ideal.rsqrt (v + Ideal.ofBits .f32 0x3727C5AC#32)) * (b - mu) + be)
      = ((g * ((A + b) - mu)) * Ideal.rsqrt (v + Ideal.ofBits .f32 0x3727C5AC#32)) + be := by
  obtain ⟨g, rfl⟩ := hg
  obtain ⟨b, rfl⟩ := hb
  obtain ⟨mu, rfl⟩ := hmu
  obtain ⟨be, rfl⟩ := hbe
  obtain ⟨v, hv0, rfl⟩ := hv
  obtain ⟨e, he, hew⟩ := eps_word
  obtain ⟨r, hr⟩ := rsqrt_real hv0 he
  rw [hew, hr]
  exact affine_eq_bn A g r b mu be

end Cert.BnLaw

end
-- ==== Proof.SpecLaws.lean ====
/-
  The folded layer functions agree with the unfolded ones, and the rows a host computes are the folded rows.

  (1) With real parameters (the variance non-negative), applying the scale row s = g * (v + eps)^(-1/2) and the
      shift row t = s * (b - mu) + be to an entry a, a * s + t, is the normalization
      g * ((a + b) - mu) * (v + eps)^(-1/2) + be of that entry, for every extended real a; the rectifier is applied
      to equal arguments. (2) Multiplying by a row of ones changes nothing: a * 1 + b = a + b, and the word
      0x3F800000 denotes 1. (3) A vector [n] reshaped to [1, n] reads, at (0, k), the vector at k; the elementwise
      operations read entry by entry, and a broadcast scalar reads the scalar: so the host's arrays are the rows.
-/
import proofs.«142197_j25941602468495_1_alg».proof.Proof.Spec
import proofs.«142197_j25941602468495_1_alg».proof.Proof.BnLaw
import Idealize.ShloMosaic.Lib.ValueLayout
import Idealize.ShloMosaic.Lib.IdealHost

noncomputable section

namespace Cert.SpecLaws

open Idealize.ShloMosaic Idealize.ShloMosaic.ValueIdx
open Cert

/-- The folded normalization followed by the rectifier is the unfolded one, when the parameters are real and the
    variance is non-negative. -/
theorem affRelu_fold {M N : Nat} (A : Spec.Mat M N) (b mu g v be : Spec.Row N)
    (hb : ∀ j, ∃ x : ℝ, b j = (x : EReal)) (hmu : ∀ j, ∃ x : ℝ, mu j = (x : EReal))
    (hg : ∀ j, ∃ x : ℝ, g j = (x : EReal)) (hbe : ∀ j, ∃ x : ℝ, be j = (x : EReal))
    (hv : ∀ j, ∃ x : ℝ, 0 ≤ x ∧ v j = (x : EReal)) :
    Spec.affRelu A (Spec.scaleRow g v) (Spec.shiftRow b mu g v be) = Spec.bnRelu A b mu g v be := by
  funext i
  exact congrArg (fun t => max t Spec.zeroW)
    (BnLaw.affine_eq_bn_ops (A i) (g (ix1 (i 1))) (b (ix1 (i 1))) (mu (ix1 (i 1))) (v (ix1 (i 1))) (be (ix1 (i 1)))
      (hg _) (hb _) (hmu _) (hbe _) (hv _))

/-- A scale row of ones and the bias as the shift row: the bias added, then the logistic function. -/
theorem affSigm_ones {M N : Nat} (A : Spec.Mat M N) (b : Spec.Row N) :
    Spec.affSigm A Spec.onesRow (Spec.rowOf b) = Spec.biasSigm A b := by
  funext i
  show Ideal.logistic (A i * Ideal.ofBits .f32 0x3F800000#32 + b (ix1 (i 1))) = Ideal.logistic (A i + b (ix1 (i 1)))
  rw [Ideal.ofBits_one_f32, mul_one]

/-- The host's scale row: g * rsqrt (v + eps) entry by entry, reshaped to [1, n]. -/
theorem scaleRow_eq {n : Nat} (g v : FVec Ideal ⟨1, ![n]⟩ .f32)
    (h1 : (⟨0, ![]⟩ : Shape).BroadcastsInDim ⟨1, ![n]⟩ ![]) (h2 : (⟨1, ![n]⟩ : Shape).ShapeCasts ⟨2, ![1, n]⟩) :
    shapeCast ⟨2, ![1, n]⟩
        (mulf g (Host.rsqrt (addf v (broadcastInDim ⟨1, ![n]⟩ ![] h1 (constant (F := Ideal) ⟨0, ![]⟩ .f32 0x3727C5AC#32)))))
        h2
      = Spec.scaleRow g v := by
  funext j
  obtain ⟨u, k, rfl⟩ : ∃ (u : Fin 1) (k : Fin n), j = ix2 u k := ⟨j 0, j 1, eq_ix2 j⟩
  rw [shapeCast_a_1a_apply]
  show g (ix1 k) * Ideal.rsqrt (v (ix1 k)
      + broadcastInDim ⟨1, ![n]⟩ ![] h1 (constant (F := Ideal) ⟨0, ![]⟩ .f32 0x3727C5AC#32) (ix1 k))
    = g (ix1 k) * Ideal.rsqrt (v (ix1 k) + Spec.epsW)
  rw [broadcastInDim_scalar_apply]
  rfl

/-- The host's shift row: (g * rsqrt (v + eps)) * (b - mu) + be entry by entry, reshaped to [1, n]. -/
theorem shiftRow_eq {n : Nat} (b mu g v be : FVec Ideal ⟨1, ![n]⟩ .f32)
    (h1 : (⟨0, ![]⟩ : Shape).BroadcastsInDim ⟨1, ![n]⟩ ![]) (h2 : (⟨1, ![n]⟩ : Shape).ShapeCasts ⟨2, ![1, n]⟩) :
    shapeCast ⟨2, ![1, n]⟩
        (addf (mulf (mulf g (Host.rsqrt (addf v (broadcastInDim ⟨1, ![n]⟩ ![] h1
          (constant (F := Ideal) ⟨0, ![]⟩ .f32 0x3727C5AC#32))))) (subf b mu)) be)
        h2
      = Spec.shiftRow b mu g v be := by
  funext j
  obtain ⟨u, k, rfl⟩ : ∃ (u : Fin 1) (k : Fin n), j = ix2 u k := ⟨j 0, j 1, eq_ix2 j⟩
  rw [shapeCast_a_1a_apply]
  show (g (ix1 k) * Ideal.rsqrt (v (ix1 k)
      + broadcastInDim ⟨1, ![n]⟩ ![] h1 (constant (F := Ideal) ⟨0, ![]⟩ .f32 0x3727C5AC#32) (ix1 k)))
        * (b (ix1 k) - mu (ix1 k)) + be (ix1 k)
    = (g (ix1 k) * Ideal.rsqrt (v (ix1 k) + Spec.epsW)) * (b (ix1 k) - mu (ix1 k)) + be (ix1 k)
  rw [broadcastInDim_scalar_apply]
  rfl

/-- The host's row of ones: the word of 1 broadcast to [n], reshaped to [1, n]. -/
theorem onesRow_eq {n : Nat} (h1 : (⟨0, ![]⟩ : Shape).BroadcastsInDim ⟨1, ![n]⟩ ![])
    (h2 : (⟨1, ![n]⟩ : Shape).ShapeCasts ⟨2, ![1, n]⟩) :
    shapeCast ⟨2, ![1, n]⟩ (broadcastInDim ⟨1, ![n]⟩ ![] h1 (constant (F := Ideal) ⟨0, ![]⟩ .f32 0x3F800000#32)) h2
      = Spec.onesRow := by
  funext j
  obtain ⟨u, k, rfl⟩ : ∃ (u : Fin 1) (k : Fin n), j = ix2 u k := ⟨j 0, j 1, eq_ix2 j⟩
  rw [shapeCast_a_1a_apply, broadcastInDim_scalar_apply]
  rfl

/-- A vector reshaped to [1, n] is the vector as a row. -/
theorem rowOf_eq {n : Nat} (b : FVec Ideal ⟨1, ![n]⟩ .f32) (h2 : (⟨1, ![n]⟩ : Shape).ShapeCasts ⟨2, ![1, n]⟩) :
    shapeCast ⟨2, ![1, n]⟩ b h2 = Spec.rowOf b := by
  funext j
  obtain ⟨u, k, rfl⟩ : ∃ (u : Fin 1) (k : Fin n), j = ix2 u k := ⟨j 0, j 1, eq_ix2 j⟩
  rw [shapeCast_a_1a_apply]
  rfl

end Cert.SpecLaws

end
-- ==== Proof.RefStages.lean ====
/-
  The reference's stages as the layer functions.

  The reference computes, in order: the product of the node features with the first weight matrix; after the
  rows are sent along the edges and added up at the receiving nodes (not named here), the bias, the
  normalization of each column and the rectifier; the product with the second weight matrix; the same again
  for the second layer; the product with the third weight matrix; and last the bias and 1 / (1 + exp (-y)),
  which is the logistic function of y. Each of these stages, read entry by entry, is the layer function of the
  same name applied to the stage before it: a product is the sum over the contracted coordinate, a row
  broadcast along the rows reads the row at the column coordinate, and the elementwise operations read entry
  by entry. The two words 0x3F800000 of the last stage denote the real number 1.
-/
import proofs.«142197_j25941602468495_1_alg».proof.Proof.RefRead
import proofs.«142197_j25941602468495_1_alg».proof.Proof.Spec
import Idealize.ShloMosaic.Lib.IdealHost

noncomputable section

namespace Cert.RefStages

open Idealize.ShloMosaic Idealize.ShloMosaic.ValueIdx
open Cert Cert.ReferenceIdeal Cert.ReferenceIdeal.ReadP

variable (x0 : (⟨S100000x128, .f32⟩ : BufTy).Contents (Elt Ideal)) (x1 : (⟨S2x1600000, .i32⟩ : BufTy).Contents (Elt Ideal))
  (x2 : (⟨S128x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x16, .f32⟩ : BufTy).Contents (Elt Ideal)) (x7 : (⟨S16, .f32⟩ : BufTy).Contents (Elt Ideal))
  (x8 x9 x10 x11 x12 x13 x14 x15 : (⟨S64, .f32⟩ : BufTy).Contents (Elt Ideal))

/-- The first product: features times the first weight matrix. -/
theorem R1 : val_main_v32 (F := Ideal) x0 x2 = Spec.prod (M := 100000) (K := 128) (N := 64) x0 x2 := by
  funext i
  rw [val_main_v32_apply]
  show _ = ∑ k : Fin 128, x0 (ix2 (i 0) k) * x2 (ix2 k (i 1))
  refine Finset.sum_congr rfl fun k _ => ?_
  have el : lidx_main_v32 i k = ix2 (i 0) k := funext fun a => by match a with | ⟨0, _⟩ => rfl | ⟨1, _⟩ => rfl
  have er : ridx_main_v32 i k = ix2 k (i 1) := funext fun a => by match a with | ⟨0, _⟩ => rfl | ⟨1, _⟩ => rfl
  rw [el, er]
  rfl

/-- The first layer's bias, normalization and rectifier. -/
theorem R2 : val_main_v64 (F := Ideal) x0 x1 x2 x3 x8 x9 x10 x11
    = Spec.bnRelu (M := 100000) (N := 64) (val_main_v45 (F := Ideal) x0 x1 x2) x3 x10 x8 x11 x9 := by
  funext i
  have h3 : idx_main_v46 (idx_main_v47 i) = ix1 (n := 64) (i 1) := funext fun a => by match a with | ⟨0, _⟩ => rfl
  have h10 : idx_main_v49 (idx_main_v50 i) = ix1 (n := 64) (i 1) := funext fun a => by match a with | ⟨0, _⟩ => rfl
  have h8 : idx_main_v52 (idx_main_v53 i) = ix1 (n := 64) (i 1) := funext fun a => by match a with | ⟨0, _⟩ => rfl
  have h11 : idx_main_v58 (idx_main_v59 i) = ix1 (n := 64) (i 1) := funext fun a => by match a with | ⟨0, _⟩ => rfl
  have h9 : idx_main_v61 (idx_main_v62 i) = ix1 (n := 64) (i 1) := funext fun a => by match a with | ⟨0, _⟩ => rfl
  rw [val_main_v64_apply, val_main_v63_apply, val_main_v60_apply, val_main_v54_apply, val_main_v51_apply,
    val_main_v48_apply, val_main_v47_apply, val_main_v46_apply, val_main_v50_apply, val_main_v49_apply,
    val_main_v53_apply, val_main_v52_apply, val_main_v59_apply, val_main_v58_apply, val_main_v57_apply,
    val_main_v56_apply, val_main_v55_apply, val_main_cst_10_apply, val_main_v62_apply, val_main_v61_apply,
    val_main_call1_v0_apply, val_main_call1_cst_apply, h3, h10, h8, h11, h9]
  rfl

/-- The second product. -/
theorem R3 : val_main_v65 (F := Ideal) x0 x1 x2 x3 x4 x8 x9 x10 x11
    = Spec.prod (M := 100000) (K := 64) (N := 64) (val_main_v64 (F := Ideal) x0 x1 x2 x3 x8 x9 x10 x11) x4 := by
  funext i
  rw [val_main_v65_apply]
  show _ = ∑ k : Fin 64, (val_main_v64 (F := Ideal) x0 x1 x2 x3 x8 x9 x10 x11) (ix2 (i 0) k) * x4 (ix2 k (i 1))
  refine Finset.sum_congr rfl fun k _ => ?_
  have el : lidx_main_v65 i k = ix2 (i 0) k := funext fun a => by match a with | ⟨0, _⟩ => rfl | ⟨1, _⟩ => rfl
  have er : ridx_main_v65 i k = ix2 k (i 1) := funext fun a => by match a with | ⟨0, _⟩ => rfl | ⟨1, _⟩ => rfl
  rw [el, er]
  rfl

/-- The second layer's bias, normalization and rectifier. -/
theorem R4 : val_main_v97 (F := Ideal) x0 x1 x2 x3 x4 x5 x8 x9 x10 x11 x12 x13 x14 x15
    = Spec.bnRelu (M := 100000) (N := 64) (val_main_v78 (F := Ideal) x0 x1 x2 x3 x4 x8 x9 x10 x11) x5 x14 x12 x15 x13 := by
  funext i
  have h5 : idx_main_v79 (idx_main_v80 i) = ix1 (n := 64) (i 1) := funext fun a => by match a with | ⟨0, _⟩ => rfl
  have h14 : idx_main_v82 (idx_main_v83 i) = ix1 (n := 64) (i 1) := funext fun a => by match a with | ⟨0, _⟩ => rfl
  have h12 : idx_main_v85 (idx_main_v86 i) = ix1 (n := 64) (i 1) := funext fun a => by match a with | ⟨0, _⟩ => rfl
  have h15 : idx_main_v91 (idx_main_v92 i) = ix1 (n := 64) (i 1) := funext fun a => by match a with | ⟨0, _⟩ => rfl
  have h13 : idx_main_v94 (idx_main_v95 i) = ix1 (n := 64) (i 1) := funext fun a => by match a with | ⟨0, _⟩ => rfl
  rw [val_main_v97_apply, val_main_v96_apply, val_main_v93_apply, val_main_v87_apply, val_main_v84_apply,
    val_main_v81_apply, val_main_v80_apply, val_main_v79_apply, val_main_v83_apply, val_main_v82_apply,
    val_main_v86_apply, val_main_v85_apply, val_main_v92_apply, val_main_v91_apply, val_main_v90_apply,
    val_main_v89_apply, val_main_v88_apply, val_main_cst_14_apply, val_main_v95_apply, val_main_v94_apply,
    val_main_call2_v0_apply, val_main_call2_cst_apply, h5, h14, h12, h15, h13]
  rfl

/-- The third product. -/
theorem R5 : val_main_v98 (F := Ideal) x0 x1 x2 x3 x4 x5 x6 x8 x9 x10 x11 x12 x13 x14 x15
    = Spec.prod (M := 100000) (K := 64) (N := 16)
        (val_main_v97 (F := Ideal) x0 x1 x2 x3 x4 x5 x8 x9 x10 x11 x12 x13 x14 x15) x6 := by
  funext i
  rw [val_main_v98_apply]
  show _ = ∑ k : Fin 64, (val_main_v97 (F := Ideal) x0 x1 x2 x3 x4 x5 x8 x9 x10 x11 x12 x13 x14 x15) (ix2 (i 0) k)
      * x6 (ix2 k (i 1))
  refine Finset.sum_congr rfl fun k _ => ?_
  have el : lidx_main_v98 i k = ix2 (i 0) k := funext fun a => by match a with | ⟨0, _⟩ => rfl | ⟨1, _⟩ => rfl
  have er : ridx_main_v98 i k = ix2 k (i 1) := funext fun a => by match a with | ⟨0, _⟩ => rfl | ⟨1, _⟩ => rfl
  rw [el, er]
  rfl

/-- The last layer's bias and logistic function. -/
theorem R6 : val_main_v120 (F := Ideal) x0 x1 x2 x3 x4 x5 x6 x7 x8 x9 x10 x11 x12 x13 x14 x15
    = Spec.biasSigm (M := 100000) (N := 16)
        (val_main_v111 (F := Ideal) x0 x1 x2 x3 x4 x5 x6 x8 x9 x10 x11 x12 x13 x14 x15) x7 := by
  funext i
  have h7 : idx_main_v112 (idx_main_v113 i) = ix1 (n := 16) (i 1) := funext fun a => by match a with | ⟨0, _⟩ => rfl
  rw [val_main_v120_apply, val_main_v119_apply, val_main_cst_19_apply, val_main_v118_apply, val_main_v117_apply,
    val_main_cst_18_apply, val_main_v116_apply, val_main_v115_apply, val_main_v114_apply, val_main_v113_apply,
    val_main_v112_apply, h7]
  simp only [Ideal.ofBits_def, Ideal.ofBits_one_f32, Ideal.hostDivf_def, Ideal.addf_def, Ideal.hostUnary_exp_def,
    Ideal.hostNegf_def, Ideal.negf_def]
  rfl

end Cert.RefStages

end
-- ==== Proof.PreFacts.lean ====
/-
  The precondition "every float input is finite, and the two running variances are non-negative", read back
  at the extended reals.

  The precondition is one boolean: the conjunction, over the float argument arrays, of "all entries x of the
  array satisfy |x| < +inf", followed by "all entries of the first variance are >= 0" and "all entries of the
  second variance are >= 0". At the extended reals |x| = max x (-x), and |x| < +inf holds exactly when x is a
  real number (it fails at +inf and at -inf, where |x| = +inf). So from the boolean being true one reads, for
  each array and each index, that the entry is (the image of) a real number, and for the two variances that
  this real number is non-negative.
-/
import proofs.«142197_j25941602468495_1_alg».proof.Defs
import proofs.«142197_j25941602468495_1_alg».proof.Proof.Gen.Pre_finite_inputs
import Idealize.ShloMosaic.Lib.ReduceAll
import Idealize.ShloMosaic.Lib.IdealHost
import Idealize.ShloMosaic.PureOps.Ideal.Laws

noncomputable section

namespace Cert.PreFacts

open Idealize.ShloMosaic Idealize.SL.Sem
open Cert.Pre_finite_inputs

/-- The rank-0 shape has one index. -/
instance : Subsingleton S_.Idx := ⟨fun a b => funext fun d => d.elim0⟩

/-- An extended real whose absolute value max x (-x) is below +inf is a real number. -/
theorem real_of_abs_lt_top (x : EReal) (h : max x (-x) < ⊤) : ∃ r : ℝ, x = (r : EReal) := by
  induction x using EReal.rec with
  | bot => simp at h
  | coe r => exact ⟨r, rfl⟩
  | top => simp at h

/-- A boolean as a one-bit word is 1 exactly when it is true. -/
theorem ofBool_eq_one (b : Bool) : BitVec.ofBool b = 1#1 ↔ b = true := by cases b <;> decide

/-- The single-precision word 0x7F800000 denotes +inf. -/
theorem inf_word : Ideal.ofBits .f32 0x7F800000#32 = ⊤ := by
  simp [Ideal.ofBits, Ideal.ieee]

/-- "All entries of x have absolute value below +inf" being true gives: every entry of x is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf x) (broadcastInDim s ![] hb (constant (F := Ideal) S_ .f32 0x7F800000#32)))
          (constantI S_ 1 1#1) hr hu j = 1#1)
    (i : s.Idx) : ∃ r : ℝ, x i = (r : EReal) := by
  have h := Host.reduce_andi_all _ _ hr hu j e i
  apply real_of_abs_lt_top
  have h2 : Ideal.cmp .olt (max (x i) (-(x i))) (Ideal.ofBits .f32 0x7F800000#32) = 1#1 := h
  rw [inf_word] at h2
  exact of_decide_eq_true ((ofBool_eq_one _).1 h2)

/-- "All entries of x are >= 0" (0 spelled as the word 0x00000000) being true gives: every entry is >= 0. -/
theorem nonneg_of_all {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi
          (cmpf .oge x (broadcastInDim s ![] hb (constant (F := Ideal) S_ .f32 0x00000000#32)))
          (constantI S_ 1 1#1) hr hu j = 1#1)
    (i : s.Idx) : 0 ≤ x i := by
  have h := Host.reduce_andi_all _ _ hr hu j e i
  have h2 : Ideal.cmp .oge (x i) (Ideal.ofBits .f32 0x00000000#32) = 1#1 := h
  rw [Ideal.ofBits_zero_f32] at h2
  exact of_decide_eq_true ((ofBool_eq_one _).1 h2)

/-- A real entry that is >= 0 as an extended real is a non-negative real. -/
theorem nonneg_real {x : EReal} (hx : ∃ r : ℝ, x = (r : EReal)) (h0 : 0 ≤ x) : ∃ r : ℝ, 0 ≤ r ∧ x = (r : EReal) := by
  obtain ⟨r, rfl⟩ := hx
  exact ⟨r, EReal.coe_nonneg.1 h0, rfl⟩

/-- What the precondition says of the ten [64] parameter vectors: every entry is a real number, and the
    entries of the two variances (the fourth and the last) are non-negative reals. -/
structure Real64 (a3 a5 a8 a9 a10 a11 a12 a13 a14 a15 : FVec Ideal S64 .f32) : Prop where
  r3 : ∀ i, ∃ x : ℝ, a3 i = (x : EReal)
  r5 : ∀ i, ∃ x : ℝ, a5 i = (x : EReal)
  r8 : ∀ i, ∃ x : ℝ, a8 i = (x : EReal)
  r9 : ∀ i, ∃ x : ℝ, a9 i = (x : EReal)
  r10 : ∀ i, ∃ x : ℝ, a10 i = (x : EReal)
  r11 : ∀ i, ∃ x : ℝ, a11 i = (x : EReal)
  r12 : ∀ i, ∃ x : ℝ, a12 i = (x : EReal)
  r13 : ∀ i, ∃ x : ℝ, a13 i = (x : EReal)
  r14 : ∀ i, ∃ x : ℝ, a14 i = (x : EReal)
  r15 : ∀ i, ∃ x : ℝ, a15 i = (x : EReal)
  v11 : ∀ i, ∃ x : ℝ, 0 ≤ x ∧ a11 i = (x : EReal)
  v15 : ∀ i, ∃ x : ℝ, 0 ≤ x ∧ a15 i = (x : EReal)

/-- The precondition decoded, over any sixteen argument arrays: the boolean is the conjunction, in argument
    order, of the finiteness of each float array, then of the two non-negativity conditions. -/
theorem of_fn (a0 : FVec Ideal S100000x128 .f32) (a1 : IVec S2x1600000 32) (a2 : FVec Ideal S128x64 .f32)
    (a3 : FVec Ideal S64 .f32) (a4 : FVec Ideal S64x64 .f32) (a5 : FVec Ideal S64 .f32)
    (a6 : FVec Ideal S64x16 .f32) (a7 : FVec Ideal S16 .f32)
    (a8 a9 a10 a11 a12 a13 a14 a15 : FVec Ideal S64 .f32)
    (h : fn (F := Ideal) a0 a1 a2 a3 a4 a5 a6 a7 a8 a9 a10 a11 a12 a13 a14 a15 = fun _ => 1#1) :
    Real64 a3 a5 a8 a9 a10 a11 a12 a13 a14 a15 := by
  have e := congrFun h ValueIdx.ix0
  dsimp only [fn, fn_part1, fn_part2, fn_part3, fn_part4, andi] at e
  simp only [IntOp.andi_eq_one] at e
  obtain ⟨⟨⟨⟨⟨⟨⟨⟨⟨⟨⟨⟨⟨⟨⟨⟨-, -⟩, h3⟩, -⟩, h5⟩, -⟩, -⟩, h8⟩, h9⟩, h10⟩, h11⟩, h12⟩, h13⟩, h14⟩, h15⟩, g11⟩, g15⟩ := e
  have r11 := real_of_all a11 _ _ _ _ h11
  have r15 := real_of_all a15 _ _ _ _ h15
  exact
    { r3 := real_of_all a3 _ _ _ _ h3
      r5 := real_of_all a5 _ _ _ _ h5
      r8 := real_of_all a8 _ _ _ _ h8
      r9 := real_of_all a9 _ _ _ _ h9
      r10 := real_of_all a10 _ _ _ _ h10
      r11 := r11
      r12 := real_of_all a12 _ _ _ _ h12
      r13 := real_of_all a13 _ _ _ _ h13
      r14 := real_of_all a14 _ _ _ _ h14
      r15 := r15
      v11 := fun i => nonneg_real (r11 i) (nonneg_of_all a11 _ _ _ _ g11 i)
      v15 := fun i => nonneg_real (r15 i) (nonneg_of_all a15 _ _ _ _ g15 i) }

/-- The same of a launch memory satisfying the kernel's precondition, at a device: the ten [64] parameter
    vectors the device holds have real entries, the two variances non-negative ones. -/
theorem of_pre {m : (ℓ : Loc Cert.KernelIdeal.nD Cert.KernelIdeal.τ Cert.KernelIdeal.sig) → Buf (Elt Ideal) ℓ}
    (h : Cert.Pre_KernelIdeal m) (c : Dev Cert.KernelIdeal.nD) :
    Real64
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)) :=
  of_fn _ _ _ _ _ _ _ _ _ _ _ _ _ _ _ _ (h c)

end Cert.PreFacts

end
-- ==== Proof.Chain.lean ====
/-
  The idealized kernel's result buffer, followed through @main.

  After the graph is built the program alternates a kernel with a stretch of host operations: the first kernel
  multiplies the node features by the first weight matrix; each following stretch sends the rows along the edges,
  weights them and adds them up at the receiving nodes (and folds the next normalization into a scale row and a shift
  row); the second and third kernels apply scale, shift and rectifier and multiply by the next weight matrix; the last
  applies a row of ones, the bias row and the logistic function. At every boundary the buffer that carries the layer's
  value holds the reference's own stage of the arguments the kernel was launched with: the host stretches are the
  reference's operations word for word, a row tile of a product is the product's row tile, and the folded
  normalization is the reference's normalization wherever the normalization's rows are real and the variances
  non-negative — which the precondition says.
-/
import proofs.«142197_j25941602468495_1_alg».proof.Proof.Entry
import proofs.«142197_j25941602468495_1_alg».proof.Proof.Legs
import proofs.«142197_j25941602468495_1_alg».proof.Proof.SpecLaws
import proofs.«142197_j25941602468495_1_alg».proof.Proof.RefStages
import proofs.«142197_j25941602468495_1_alg».proof.Proof.PreFacts

set_option maxRecDepth 16384

noncomputable section

namespace Cert.KernelIdeal.Chain

open Idealize.ShloMosaic Idealize.ShloMosaic.TcCoe Idealize.SL.Sem
open Cert.KernelIdeal Cert.KernelIdeal.Gen
open Cert.ReferenceIdeal.ReadP

variable (m : (ℓ : Loc nD τ sig) → Buf (Elt Ideal) ℓ) (ρ : Dev nD → PrngReg)

/-! The argument arrays as launched. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)
abbrev A7 (c : Dev nD) := m ((c : Thread nD τ).loc main_arg7)
abbrev A8 (c : Dev nD) := m ((c : Thread nD τ).loc main_arg8)
abbrev A9 (c : Dev nD) := m ((c : Thread nD τ).loc main_arg9)
abbrev A10 (c : Dev nD) := m ((c : Thread nD τ).loc main_arg10)
abbrev A11 (c : Dev nD) := m ((c : Thread nD τ).loc main_arg11)
abbrev A12 (c : Dev nD) := m ((c : Thread nD τ).loc main_arg12)
abbrev A13 (c : Dev nD) := m ((c : Thread nD τ).loc main_arg13)
abbrev A14 (c : Dev nD) := m ((c : Thread nD τ).loc main_arg14)
abbrev A15 (c : Dev nD) := m ((c : Thread nD τ).loc main_arg15)

/-- A buffer after a stretch of host operations: the operations' results, one at a time. -/
macro "host_read" : tactic => `(tactic| (after_results <;> try rfl))

/-! ## After the first kernel (its output: the features times the first weight matrix) -/

theorem W4_src (c : Dev nD) : W4 m ρ c (Proc.devRef .tc main_v3) = val_main_v3 (F := Ideal) (A1 m c) :=
  (W4_of_ne m ρ c main_v3 (by decide)).trans (Entry.src m ρ c)
theorem W4_dst (c : Dev nD) : W4 m ρ c (Proc.devRef .tc main_v6) = val_main_v6 (F := Ideal) (A1 m c) :=
  (W4_of_ne m ρ c main_v6 (by decide)).trans (Entry.dst m ρ c)
theorem W4_norm (c : Dev nD) : W4 m ρ c (Proc.devRef .tc main_v31) = val_main_v31 (F := Ideal) (A1 m c) :=
  (W4_of_ne m ρ c main_v31 (by decide)).trans (Entry.norm m ρ c)
theorem W4_arg3 (c : Dev nD) : W4 m ρ c (Proc.devRef .tc main_arg3) = A3 m c :=
  (W4_of_ne m ρ c main_arg3 (by decide)).trans (Entry.arg3 m ρ c)
theorem W4_arg4 (c : Dev nD) : W4 m ρ c (Proc.devRef .tc main_arg4) = A4 m c :=
  (W4_of_ne m ρ c main_arg4 (by decide)).trans (Entry.arg4 m ρ c)
theorem W4_arg5 (c : Dev nD) : W4 m ρ c (Proc.devRef .tc main_arg5) = A5 m c :=
  (W4_of_ne m ρ c main_arg5 (by decide)).trans (Entry.arg5 m ρ c)
theorem W4_arg6 (c : Dev nD) : W4 m ρ c (Proc.devRef .tc main_arg6) = A6 m c :=
  (W4_of_ne m ρ c main_arg6 (by decide)).trans (Entry.arg6 m ρ c)
theorem W4_arg7 (c : Dev nD) : W4 m ρ c (Proc.devRef .tc main_arg7) = A7 m c :=
  (W4_of_ne m ρ c main_arg7 (by decide)).trans (Entry.arg7 m ρ c)
theorem W4_arg8 (c : Dev nD) : W4 m ρ c (Proc.devRef .tc main_arg8) = A8 m c :=
  (W4_of_ne m ρ c main_arg8 (by decide)).trans (Entry.arg8 m ρ c)
theorem W4_arg9 (c : Dev nD) : W4 m ρ c (Proc.devRef .tc main_arg9) = A9 m c :=
  (W4_of_ne m ρ c main_arg9 (by decide)).trans (Entry.arg9 m ρ c)
theorem W4_arg10 (c : Dev nD) : W4 m ρ c (Proc.devRef .tc main_arg10) = A10 m c :=
  (W4_of_ne m ρ c main_arg10 (by decide)).trans (Entry.arg10 m ρ c)
theorem W4_arg11 (c : Dev nD) : W4 m ρ c (Proc.devRef .tc main_arg11) = A11 m c :=
  (W4_of_ne m ρ c main_arg11 (by decide)).trans (Entry.arg11 m ρ c)
theorem W4_arg12 (c : Dev nD) : W4 m ρ c (Proc.devRef .tc main_arg12) = A12 m c :=
  (W4_of_ne m ρ c main_arg12 (by decide)).trans (Entry.arg12 m ρ c)
theorem W4_arg13 (c : Dev nD) : W4 m ρ c (Proc.devRef .tc main_arg13) = A13 m c :=
  (W4_of_ne m ρ c main_arg13 (by decide)).trans (Entry.arg13 m ρ c)
theorem W4_arg14 (c : Dev nD) : W4 m ρ c (Proc.devRef .tc main_arg14) = A14 m c :=
  (W4_of_ne m ρ c main_arg14 (by decide)).trans (Entry.arg14 m ρ c)
theorem W4_arg15 (c : Dev nD) : W4 m ρ c (Proc.devRef .tc main_arg15) = A15 m c :=
  (W4_of_ne m ρ c main_arg15 (by decide)).trans (Entry.arg15 m ρ c)

/-- The first kernel's output array is the whole product. -/
theorem W4_h1 (c : Dev nD) : W4 m ρ c (Proc.devRef .tc main_v32) = val_main_v32 (F := Ideal) (A0 m c) (A2 m c) := by
  refine (W4_arr m ρ c 2).trans ?_
  rw [Cert.Legs.leg0]
  show Cert.Spec.prod (M := 100000) (K := 128) (N := 64) (W3 m ρ c (Proc.devRef .tc main_arg0)) (W3 m ρ c (Proc.devRef .tc main_arg2)) = _
  rw [Entry.arg0, Entry.arg2]
  exact (Cert.RefStages.R1 _ _).symm

/-! ## The second kernel's operands: the first layer's aggregated messages, the folded scale and shift rows -/

set_option maxHeartbeats 2000000 in
/-- The rows of the product sent along the edges, weighted, and added up at the receiving nodes. -/
theorem W5_agg1 (c : Dev nD) : W5 m ρ c (Proc.devRef .tc main_v45) = val_main_v45 (F := Ideal) (A0 m c) (A1 m c) (A2 m c) := by
  dsimp only [W5, hostOps1]
  after_results_simp
  rw [W4_h1, W4_src, W4_dst, W4_norm]
  rfl

set_option maxHeartbeats 2000000 in
theorem W5_scale1 (c : Dev nD) : W5 m ρ c (Proc.devRef .tc main_v53) = Cert.Spec.scaleRow (N := 64) (A8 m c) (A11 m c) := by
  dsimp only [W5, hostOps1]
  after_results_simp
  rw [W4_arg8, W4_arg11]
  exact Cert.SpecLaws.scaleRow_eq _ _ _ _

set_option maxHeartbeats 2000000 in
theorem W5_shift1 (c : Dev nD) : W5 m ρ c (Proc.devRef .tc main_v54)
    = Cert.Spec.shiftRow (N := 64) (A3 m c) (A10 m c) (A8 m c) (A11 m c) (A9 m c) := by
  dsimp only [W5, hostOps1]
  after_results_simp
  rw [W4_arg8, W4_arg11, W4_arg3, W4_arg10, W4_arg9]
  exact Cert.SpecLaws.shiftRow_eq _ _ _ _ _ _ _

set_option maxHeartbeats 2000000 in
theorem W5_arg4 (c : Dev nD) : W5 m ρ c (Proc.devRef .tc main_arg4) = A4 m c := by
  dsimp only [W5, hostOps1]
  after_results_simp
  exact W4_arg4 m ρ c

/-- The second kernel's output array: scale, shift and rectifier on the aggregated messages, times the second weight
    matrix — the reference's second product, the folded normalization being the reference's on real rows. -/
theorem W6_h2 (hpre : Cert.Pre_KernelIdeal m) (c : Dev nD) : W6 m ρ c (Proc.devRef .tc main_v55)
    = val_main_v65 (F := Ideal) (A0 m c) (A1 m c) (A2 m c) (A3 m c) (A4 m c) (A8 m c) (A9 m c) (A10 m c) (A11 m c) := by
  have P := Cert.PreFacts.of_pre hpre c
  refine (W6_arr m ρ c 4).trans ?_
  rw [Cert.Legs.leg1]
  show Cert.Spec.prod (M := 100000) (K := 64) (N := 64) (Cert.Spec.affRelu (M := 100000) (N := 64)
    (W5 m ρ c (Proc.devRef .tc main_v45)) (W5 m ρ c (Proc.devRef .tc main_v53)) (W5 m ρ c (Proc.devRef .tc main_v54)))
    (W5 m ρ c (Proc.devRef .tc main_arg4)) = _
  rw [W5_agg1, W5_scale1, W5_shift1, W5_arg4,
    Cert.SpecLaws.affRelu_fold _ (A3 m c) (A10 m c) (A8 m c) (A11 m c) (A9 m c) P.r3 P.r10 P.r8 P.r9 P.v11]
  rw [Cert.RefStages.R3, Cert.RefStages.R2]

/-! ## The third kernel's operands -/

set_option maxHeartbeats 2000000 in
theorem W5_src (c : Dev nD) : W5 m ρ c (Proc.devRef .tc main_v3) = val_main_v3 (F := Ideal) (A1 m c) := by
  dsimp only [W5, hostOps1]
  after_results_simp
  exact W4_src m ρ c
set_option maxHeartbeats 2000000 in
theorem W5_dst (c : Dev nD) : W5 m ρ c (Proc.devRef .tc main_v6) = val_main_v6 (F := Ideal) (A1 m c) := by
  dsimp only [W5, hostOps1]
  after_results_simp
  exact W4_dst m ρ c
set_option maxHeartbeats 2000000 in
theorem W5_norm (c : Dev nD) : W5 m ρ c (Proc.devRef .tc main_v31) = val_main_v31 (F := Ideal) (A1 m c) := by
  dsimp only [W5, hostOps1]
  after_results_simp
  exact W4_norm m ρ c
set_option maxHeartbeats 2000000 in
theorem W5_arg5 (c : Dev nD) : W5 m ρ c (Proc.devRef .tc main_arg5) = A5 m c := by
  dsimp only [W5, hostOps1]
  after_results_simp
  exact W4_arg5 m ρ c
set_option maxHeartbeats 2000000 in
theorem W5_arg6 (c : Dev nD) : W5 m ρ c (Proc.devRef .tc main_arg6) = A6 m c := by
  dsimp only [W5, hostOps1]
  after_results_simp
  exact W4_arg6 m ρ c
set_option maxHeartbeats 2000000 in
theorem W5_arg7 (c : Dev nD) : W5 m ρ c (Proc.devRef .tc main_arg7) = A7 m c := by
  dsimp only [W5, hostOps1]
  after_results_simp
  exact W4_arg7 m ρ c
set_option maxHeartbeats 2000000 in
theorem W5_arg12 (c : Dev nD) : W5 m ρ c (Proc.devRef .tc main_arg12) = A12 m c := by
  dsimp only [W5, hostOps1]
  after_results_simp
  exact W4_arg12 m ρ c
set_option maxHeartbeats 2000000 in
theorem W5_arg13 (c : Dev nD) : W5 m ρ c (Proc.devRef .tc main_arg13) = A13 m c := by
  dsimp only [W5, hostOps1]
  after_results_simp
  exact W4_arg13 m ρ c
set_option maxHeartbeats 2000000 in
theorem W5_arg14 (c : Dev nD) : W5 m ρ c (Proc.devRef .tc main_arg14) = A14 m c := by
  dsimp only [W5, hostOps1]
  after_results_simp
  exact W4_arg14 m ρ c
set_option maxHeartbeats 2000000 in
theorem W5_arg15 (c : Dev nD) : W5 m ρ c (Proc.devRef .tc main_arg15) = A15 m c := by
  dsimp only [W5, hostOps1]
  after_results_simp
  exact W4_arg15 m ρ c
theorem W6_src (c : Dev nD) : W6 m ρ c (Proc.devRef .tc main_v3) = val_main_v3 (F := Ideal) (A1 m c) :=
  (W6_of_ne m ρ c main_v3 (by decide)).trans (W5_src m ρ c)
theorem W6_dst (c : Dev nD) : W6 m ρ c (Proc.devRef .tc main_v6) = val_main_v6 (F := Ideal) (A1 m c) :=
  (W6_of_ne m ρ c main_v6 (by decide)).trans (W5_dst m ρ c)
theorem W6_norm (c : Dev nD) : W6 m ρ c (Proc.devRef .tc main_v31) = val_main_v31 (F := Ideal) (A1 m c) :=
  (W6_of_ne m ρ c main_v31 (by decide)).trans (W5_norm m ρ c)
theorem W6_arg5 (c : Dev nD) : W6 m ρ c (Proc.devRef .tc main_arg5) = A5 m c :=
  (W6_of_ne m ρ c main_arg5 (by decide)).trans (W5_arg5 m ρ c)
theorem W6_arg6 (c : Dev nD) : W6 m ρ c (Proc.devRef .tc main_arg6) = A6 m c :=
  (W6_of_ne m ρ c main_arg6 (by decide)).trans (W5_arg6 m ρ c)
theorem W6_arg7 (c : Dev nD) : W6 m ρ c (Proc.devRef .tc main_arg7) = A7 m c :=
  (W6_of_ne m ρ c main_arg7 (by decide)).trans (W5_arg7 m ρ c)
theorem W6_arg12 (c : Dev nD) : W6 m ρ c (Proc.devRef .tc main_arg12) = A12 m c :=
  (W6_of_ne m ρ c main_arg12 (by decide)).trans (W5_arg12 m ρ c)
theorem W6_arg13 (c : Dev nD) : W6 m ρ c (Proc.devRef .tc main_arg13) = A13 m c :=
  (W6_of_ne m ρ c main_arg13 (by decide)).trans (W5_arg13 m ρ c)
theorem W6_arg14 (c : Dev nD) : W6 m ρ c (Proc.devRef .tc main_arg14) = A14 m c :=
  (W6_of_ne m ρ c main_arg14 (by decide)).trans (W5_arg14 m ρ c)
theorem W6_arg15 (c : Dev nD) : W6 m ρ c (Proc.devRef .tc main_arg15) = A15 m c :=
  (W6_of_ne m ρ c main_arg15 (by decide)).trans (W5_arg15 m ρ c)

set_option maxHeartbeats 2000000 in
/-- The second layer's aggregated messages. -/
theorem W7_agg2 (hpre : Cert.Pre_KernelIdeal m) (c : Dev nD) : W7 m ρ c (Proc.devRef .tc main_v68)
    = val_main_v78 (F := Ideal) (A0 m c) (A1 m c) (A2 m c) (A3 m c) (A4 m c) (A8 m c) (A9 m c) (A10 m c) (A11 m c) := by
  dsimp only [W7, hostOps2]
  after_results_simp
  rw [W6_h2 m ρ hpre, W6_src, W6_dst, W6_norm]
  rfl

set_option maxHeartbeats 2000000 in
theorem W7_scale2 (c : Dev nD) : W7 m ρ c (Proc.devRef .tc main_v76) = Cert.Spec.scaleRow (N := 64) (A12 m c) (A15 m c) := by
  dsimp only [W7, hostOps2]
  after_results_simp
  rw [W6_arg12, W6_arg15]
  exact Cert.SpecLaws.scaleRow_eq _ _ _ _

set_option maxHeartbeats 2000000 in
theorem W7_shift2 (c : Dev nD) : W7 m ρ c (Proc.devRef .tc main_v77)
    = Cert.Spec.shiftRow (N := 64) (A5 m c) (A14 m c) (A12 m c) (A15 m c) (A13 m c) := by
  dsimp only [W7, hostOps2]
  after_results_simp
  rw [W6_arg12, W6_arg15, W6_arg5, W6_arg14, W6_arg13]
  exact Cert.SpecLaws.shiftRow_eq _ _ _ _ _ _ _

set_option maxHeartbeats 2000000 in
theorem W7_arg6 (c : Dev nD) : W7 m ρ c (Proc.devRef .tc main_arg6) = A6 m c := by
  dsimp only [W7, hostOps2]
  after_results_simp
  exact W6_arg6 m ρ c

/-- The third kernel's output array: the reference's third product. -/
theorem W8_h3 (hpre : Cert.Pre_KernelIdeal m) (c : Dev nD) : W8 m ρ c (Proc.devRef .tc main_v78)
    = val_main_v98 (F := Ideal) (A0 m c) (A1 m c) (A2 m c) (A3 m c) (A4 m c) (A5 m c) (A6 m c) (A8 m c) (A9 m c) (A10 m c) (A11 m c) (A12 m c) (A13 m c) (A14 m c) (A15 m c) := by
  have P := Cert.PreFacts.of_pre hpre c
  refine (W8_arr m ρ c 4).trans ?_
  rw [Cert.Legs.leg2]
  show Cert.Spec.prod (M := 100000) (K := 64) (N := 16) (Cert.Spec.affRelu (M := 100000) (N := 64)
    (W7 m ρ c (Proc.devRef .tc main_v68)) (W7 m ρ c (Proc.devRef .tc main_v76)) (W7 m ρ c (Proc.devRef .tc main_v77)))
    (W7 m ρ c (Proc.devRef .tc main_arg6)) = _
  rw [W7_agg2 m ρ hpre, W7_scale2, W7_shift2, W7_arg6,
    Cert.SpecLaws.affRelu_fold _ (A5 m c) (A14 m c) (A12 m c) (A15 m c) (A13 m c) P.r5 P.r14 P.r12 P.r13 P.v15]
  rw [Cert.RefStages.R5, Cert.RefStages.R4]

/-! ## The last kernel's operands, and the result -/

set_option maxHeartbeats 2000000 in
theorem W7_src (c : Dev nD) : W7 m ρ c (Proc.devRef .tc main_v3) = val_main_v3 (F := Ideal) (A1 m c) := by
  dsimp only [W7, hostOps2]
  after_results_simp
  exact W6_src m ρ c
set_option maxHeartbeats 2000000 in
theorem W7_dst (c : Dev nD) : W7 m ρ c (Proc.devRef .tc main_v6) = val_main_v6 (F := Ideal) (A1 m c) := by
  dsimp only [W7, hostOps2]
  after_results_simp
  exact W6_dst m ρ c
set_option maxHeartbeats 2000000 in
theorem W7_norm (c : Dev nD) : W7 m ρ c (Proc.devRef .tc main_v31) = val_main_v31 (F := Ideal) (A1 m c) := by
  dsimp only [W7, hostOps2]
  after_results_simp
  exact W6_norm m ρ c
set_option maxHeartbeats 2000000 in
theorem W7_arg7 (c : Dev nD) : W7 m ρ c (Proc.devRef .tc main_arg7) = A7 m c := by
  dsimp only [W7, hostOps2]
  after_results_simp
  exact W6_arg7 m ρ c
theorem W8_src (c : Dev nD) : W8 m ρ c (Proc.devRef .tc main_v3) = val_main_v3 (F := Ideal) (A1 m c) :=
  (W8_of_ne m ρ c main_v3 (by decide)).trans (W7_src m ρ c)
theorem W8_dst (c : Dev nD) : W8 m ρ c (Proc.devRef .tc main_v6) = val_main_v6 (F := Ideal) (A1 m c) :=
  (W8_of_ne m ρ c main_v6 (by decide)).trans (W7_dst m ρ c)
theorem W8_norm (c : Dev nD) : W8 m ρ c (Proc.devRef .tc main_v31) = val_main_v31 (F := Ideal) (A1 m c) :=
  (W8_of_ne m ρ c main_v31 (by decide)).trans (W7_norm m ρ c)
theorem W8_arg7 (c : Dev nD) : W8 m ρ c (Proc.devRef .tc main_arg7) = A7 m c :=
  (W8_of_ne m ρ c main_arg7 (by decide)).trans (W7_arg7 m ρ c)

set_option maxHeartbeats 2000000 in
/-- The third layer's aggregated messages. -/
theorem W9_agg3 (hpre : Cert.Pre_KernelIdeal m) (c : Dev nD) : W9 m ρ c (Proc.devRef .tc main_v91)
    = val_main_v111 (F := Ideal) (A0 m c) (A1 m c) (A2 m c) (A3 m c) (A4 m c) (A5 m c) (A6 m c) (A8 m c) (A9 m c) (A10 m c) (A11 m c) (A12 m c) (A13 m c) (A14 m c) (A15 m c) := by
  dsimp only [W9, hostOps3]
  after_results_simp
  rw [W8_h3 m ρ hpre, W8_src, W8_dst, W8_norm]
  rfl

set_option maxHeartbeats 2000000 in
theorem W9_ones (c : Dev nD) : W9 m ρ c (Proc.devRef .tc main_v93) = Cert.Spec.onesRow (N := 16) := by
  dsimp only [W9, hostOps3]
  after_results_simp
  exact Cert.SpecLaws.onesRow_eq _ _

set_option maxHeartbeats 2000000 in
theorem W9_bias (c : Dev nD) : W9 m ρ c (Proc.devRef .tc main_v94) = Cert.Spec.rowOf (N := 16) (A7 m c) := by
  dsimp only [W9, hostOps3]
  after_results_simp
  rw [W8_arg7]
  exact Cert.SpecLaws.rowOf_eq _ _

/-- THE RESULT: the last kernel's output array is the reference's last stage of the arguments the kernel was launched
    with. -/
theorem result (hpre : Cert.Pre_KernelIdeal m) (c : Dev nD) : W10 m ρ c (Proc.devRef .tc main_v95)
    = val_main_v120 (F := Ideal) (A0 m c) (A1 m c) (A2 m c) (A3 m c) (A4 m c) (A5 m c) (A6 m c) (A7 m c) (A8 m c) (A9 m c) (A10 m c) (A11 m c) (A12 m c) (A13 m c) (A14 m c) (A15 m c) := by
  refine (W10_arr m ρ c 3).trans ?_
  rw [Cert.Legs.leg3]
  show Cert.Spec.affSigm (M := 100000) (N := 16) (W9 m ρ c (Proc.devRef .tc main_v91)) (W9 m ρ c (Proc.devRef .tc main_v93))
    (W9 m ρ c (Proc.devRef .tc main_v94)) = _
  rw [W9_agg3 m ρ hpre, W9_ones, W9_bias, Cert.SpecLaws.affSigm_ones]
  rw [Cert.RefStages.R6]

end Cert.KernelIdeal.Chain

end
-- ==== Proof.lean ====
/-
  The certificate of a three-layer graph convolution: a program of four row-tiled kernels (one matrix product; two
  "scale, shift, rectifier, matrix product"; one "scale, shift, logistic") among host gathers and scatter-adds, against
  the plain reference (product, propagate, bias, batch normalization with running statistics, rectifier; the last layer
  bias and logistic).

  The three frames: each program terminates without a fault and leaves its arguments as launched — the two kernel
  programs by the generated frame over their ten segments, the reference by its run over its list of host operations.
  The idealization applied no rewrite, so there is nothing to preserve. The value claim: on the extended reals the two
  programs compute the same array. Both build the same graph with the same operations; a row tile of a product is the
  product's row tile; and the kernel's folded normalization a · s + t with s = g · (v + eps)^(-1/2),
  t = s · (b − mu) + be is the reference's g · ((a + b) − mu) · (v + eps)^(-1/2) + be for every extended real a as soon
  as g, b, mu, be are real and v is a non-negative real — the precondition: every float input finite and the two
  running variances non-negative (outside it the reference's own rsqrt leaves its domain).
-/
import proofs.«142197_j25941602468495_1_alg».proof.Defs
import proofs.«142197_j25941602468495_1_alg».proof.Proof.Gen.Kernel
import proofs.«142197_j25941602468495_1_alg».proof.Proof.Gen.Kernel.Skeleton
import proofs.«142197_j25941602468495_1_alg».proof.Proof.Gen.Kernel.Launch
import proofs.«142197_j25941602468495_1_alg».proof.Proof.Gen.Kernel.Points
import proofs.«142197_j25941602468495_1_alg».proof.Proof.Gen.Kernel.Frame
import proofs.«142197_j25941602468495_1_alg».proof.Proof.Gen.KernelIdeal
import proofs.«142197_j25941602468495_1_alg».proof.Proof.Gen.KernelIdeal.Skeleton
import proofs.«142197_j25941602468495_1_alg».proof.Proof.Gen.KernelIdeal.Launch
import proofs.«142197_j25941602468495_1_alg».proof.Proof.Gen.KernelIdeal.Points
import proofs.«142197_j25941602468495_1_alg».proof.Proof.Gen.KernelIdeal.Frame
import proofs.«142197_j25941602468495_1_alg».proof.Proof.Gen.ReferenceIdeal
import proofs.«142197_j25941602468495_1_alg».proof.Proof.Gen.Pre_finite_inputs
import proofs.«142197_j25941602468495_1_alg».proof.Proof.KernelRun
import proofs.«142197_j25941602468495_1_alg».proof.Proof.RefRun
import proofs.«142197_j25941602468495_1_alg».proof.Proof.RefRead
import proofs.«142197_j25941602468495_1_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both idealized programs end with the reference's last stage of the arguments: the kernel by following its result
    buffer through @main, the reference by its run; the arguments agree. -/
theorem algebraic : Cert.algebraic_KernelIdeal_ReferenceIdeal := by
  intro m ρ m' ρ' hpre hagree
  refine ⟨fun c => Cert.ReferenceIdeal.ReadP.val_main_v120 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Chain.result m ρ hpre c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v120_eq]
    obtain ⟨e0, e1, e2, e3, e4, e5, e6, e7, e8, e9, e10, e11, e12, e13, e14, e15⟩ := hagree c
    rw [e0, e1, e2, e3, e4, e5, e6, e7, e8, e9, e10, e11, e12, e13, e14, e15]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
